-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1000000 : Shape := ⟨2, ![2, 1000000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x40 .f32) (main_arg11 : FVec F S40 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x40 .f32 := Host.absf main_arg10
  let main_cst_16 : FVec F S_ .f32 := constant S_ .f32 0x7F800000#32
  let main_v45 : FVec F S64x40 .f32 := broadcastInDim S64x40 ![] bcast_S_S64x40 main_cst_16
  let main_v46 : IVec S64x40 1 := cmpf .olt main_v44 main_v45
  let main_c_17 : IVec S_ 1 := constantI S_ 1 1#1
  let main_v47 : IVec S_ 1 := (fun x v => Host.reduce IntOp.andi x v reducesTo_S64x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x1000000 32) (main_arg2 : FVec F S256x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x1000000 : Shape := ⟨2, ![2, 1000000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1x64 : Shape := ⟨2, ![1, 64]⟩
abbrev S1x40 : Shape := ⟨2, ![1, 40]⟩
abbrev S100000x64 : Shape := ⟨2, ![100000, 64]⟩
abbrev S5000x256 : Shape := ⟨2, ![5000, 256]⟩
abbrev S5000x64 : Shape := ⟨2, ![5000, 64]⟩
abbrev S1100000x64 : Shape := ⟨2, ![1100000, 64]⟩
abbrev S100000x40 : Shape := ⟨2, ![100000, 40]⟩
abbrev S5000x40 : Shape := ⟨2, ![5000, 40]⟩

abbrev nBuf : Space → Nat
  | .hbm => 118
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S100000, .i32⟩
  | .hbm, ⟨13, _⟩ => ⟨S1x1000000, .i32⟩
  | .hbm, ⟨14, _⟩ => ⟨S1000000, .i32⟩
  | .hbm, ⟨15, _⟩ => ⟨S1100000, .i32⟩
  | .hbm, ⟨16, _⟩ => ⟨S1x1000000, .i32⟩
  | .hbm, ⟨17, _⟩ => ⟨S1000000, .i32⟩
  | .hbm, ⟨18, _⟩ => ⟨S1100000, .i32⟩
  | .hbm, ⟨19, _⟩ => ⟨S_, .f32⟩
  | .hbm, ⟨20, _⟩ => ⟨S1100000, .f32⟩
  | .hbm, ⟨21, _⟩ => ⟨S_, .f32⟩
  | .hbm, ⟨22, _⟩ => ⟨S100000, .f32⟩
  | .hbm, ⟨23, _⟩ => ⟨S1100000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1100000, .i32⟩
  | .hbm, ⟨35, _⟩ => ⟨S1100000, .i1⟩
  | .hbm, ⟨36, _⟩ => ⟨S_, .i32⟩
  | .hbm, ⟨37, _⟩ => ⟨S1100000, .i32⟩
  | .hbm, ⟨38, _⟩ => ⟨S1100000, .i32⟩
  | .hbm, ⟨39, _⟩ => ⟨S1100000, .i32⟩
  | .hbm, ⟨40, _⟩ => ⟨S1100000x1, .i32⟩
  | .hbm, ⟨41, _⟩ => ⟨S1100000, .f32⟩
  | .hbm, ⟨42, _⟩ => ⟨S_, .i32⟩
  | .hbm, ⟨43, _⟩ => ⟨S1100000, .i32⟩
  | .hbm, ⟨44, _⟩ => ⟨S1100000, .i1⟩
  | .hbm, ⟨45, _⟩ => ⟨S_, .i32⟩
  | .hbm, ⟨46, _⟩ => ⟨S1100000, .i32⟩
  | .hbm, ⟨47, _⟩ => ⟨S1100000, .i32⟩
  | .hbm, ⟨48, _⟩ => ⟨S1100000, .i32⟩
  | .hbm, ⟨49, _⟩ => ⟨S1100000x1, .i32⟩
  | .hbm, ⟨50, _⟩ => ⟨S1100000, .f32⟩
  | .hbm, ⟨51, _⟩ => ⟨S1100000, .f32⟩
  | .hbm, ⟨52, _⟩ => ⟨S_, .f32⟩
  | .hbm, ⟨53, _⟩ => ⟨S1x64, .f32⟩
  | .hbm, ⟨54, _⟩ => ⟨S1x64, .f32⟩
  | .hbm, ⟨55, _⟩ => ⟨S1x40, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1100000, .i32⟩
  | .hbm, ⟨60, _⟩ => ⟨S1100000, .i1⟩
  | .hbm, ⟨61, _⟩ => ⟨S_, .i32⟩
  | .hbm, ⟨62, _⟩ => ⟨S1100000, .i32⟩
  | .hbm, ⟨63, _⟩ => ⟨S1100000, .i32⟩
  | .hbm, ⟨64, _⟩ => ⟨S1100000, .i32⟩
  | .hbm, ⟨65, _⟩ => ⟨S1100000x1, .i32⟩
  | .hbm, ⟨66, _⟩ => ⟨S1100000x64, .f32⟩
  | .hbm, ⟨67, _⟩ => ⟨S1100000x1, .f32⟩
  | .hbm, ⟨68, _⟩ => ⟨S1100000x64, .f32⟩
  | .hbm, ⟨69, _⟩ => ⟨S1100000x64, .f32⟩
  | .hbm, ⟨70, _⟩ => ⟨S_, .f32⟩
  | .hbm, ⟨71, _⟩ => ⟨S100000x64, .f32⟩
  | .hbm, ⟨72, _⟩ => ⟨S1100000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1100000, .i32⟩
  | .hbm, ⟨80, _⟩ => ⟨S1100000, .i1⟩
  | .hbm, ⟨81, _⟩ => ⟨S_, .i32⟩
  | .hbm, ⟨82, _⟩ => ⟨S1100000, .i32⟩
  | .hbm, ⟨83, _⟩ => ⟨S1100000, .i32⟩
  | .hbm, ⟨84, _⟩ => ⟨S1100000, .i32⟩
  | .hbm, ⟨85, _⟩ => ⟨S1100000x1, .i32⟩
  | .hbm, ⟨86, _⟩ => ⟨S1100000x64, .f32⟩
  | .hbm, ⟨87, _⟩ => ⟨S1100000x1, .f32⟩
  | .hbm, ⟨88, _⟩ => ⟨S1100000x64, .f32⟩
  | .hbm, ⟨89, _⟩ => ⟨S1100000x64, .f32⟩
  | .hbm, ⟨90, _⟩ => ⟨S_, .f32⟩
  | .hbm, ⟨91, _⟩ => ⟨S100000x64, .f32⟩
  | .hbm, ⟨92, _⟩ => ⟨S1100000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S1100000, .i32⟩
  | .hbm, ⟨100, _⟩ => ⟨S1100000, .i1⟩
  | .hbm, ⟨101, _⟩ => ⟨S_, .i32⟩
  | .hbm, ⟨102, _⟩ => ⟨S1100000, .i32⟩
  | .hbm, ⟨103, _⟩ => ⟨S1100000, .i32⟩
  | .hbm, ⟨104, _⟩ => ⟨S1100000, .i32⟩
  | .hbm, ⟨105, _⟩ => ⟨S1100000x1, .i32⟩
  | .hbm, ⟨106, _⟩ => ⟨S1100000x64, .f32⟩
  | .hbm, ⟨107, _⟩ => ⟨S1100000x1, .f32⟩
  | .hbm, ⟨108, _⟩ => ⟨S1100000x64, .f32⟩
  | .hbm, ⟨109, _⟩ => ⟨S1100000x64, .f32⟩
  | .hbm, ⟨110, _⟩ => ⟨S_, .f32⟩
  | .hbm, ⟨111, _⟩ => ⟨S100000x64, .f32⟩
  | .hbm, ⟨112, _⟩ => ⟨S1100000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x40, .f32⟩
  | .local _ .vmem, ⟨31, _⟩ => ⟨S1x40, .f32⟩
  | .local _ .vmem, ⟨32, _⟩ => ⟨S5000x40, .f32⟩
  | .local _ .vmem, ⟨33, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem5_0 : DmaSem sig := 32
abbrev cc4_sem5_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1x64 : S_.BroadcastsInDim S1x64 (![] : Fin 0 → Fin S1x64.rank)
  shapeCasts_S64_S1x64 : S64.ShapeCasts S1x64
  shapeCasts_S40_S1x40 : S40.ShapeCasts S1x40
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x256_S256x64_S5000x64_1_0_0_1_n_n_wf : DotDims.WF S5000x256 S256x64 S5000x64 [1] [0] [0] [1] [] []
  dot_S5000x64_S64x64_S5000x64_1_0_0_1_n_n_wf : DotDims.WF S5000x64 S64x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x40.size a ≤ S64x40.size a
  hwx4_3 : ∀ i : grid4.Coords, EltTy.bits .f32 = 32 ∨ (Rect.block (s := S64x40) S64x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x40.size a ≤ S1x40.size a
  hwx4_4 : ∀ i : grid4.Coords, EltTy.bits .f32 = 32 ∨ (Rect.block (s := S1x40) S1x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x40.size a ≤ S100000x40.size a
  hwx4_5 : ∀ i : grid4.Coords, EltTy.bits .f32 = 32 ∨ (Rect.block (s := S100000x40) S5000x40.size (cc4_transform_5 i) (hinb4_5 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v67) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v50) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v84) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S64x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S1x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S5000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1000000 : Shape := ⟨2, ![2, 1000000]⟩
abbrev S256x64 : Shape := ⟨2, ![256, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1x64 : Shape := ⟨2, ![1, 64]⟩
abbrev S1100000x64 : Shape := ⟨2, ![1100000, 64]⟩
abbrev S100000x40 : Shape := ⟨2, ![100000, 40]⟩
abbrev S1x40 : Shape := ⟨2, ![1, 40]⟩

abbrev nBuf : Space → Nat
  | .hbm => 131
  | .vmem => 0
  | .smem => 0
  | _ => 0

abbrev hbmTy0_0 (i : Nat) : BufTy := match i % 128 with
  | 0 => ⟨S100000x256, .f32⟩
  | 1 => ⟨S2x1000000, .i32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x40, .f32⟩
  | 11 => ⟨S40, .f32⟩
  | 12 => ⟨S100000, .i32⟩
  | 13 => ⟨S1x1000000, .i32⟩
  | 14 => ⟨S1000000, .i32⟩
  | 15 => ⟨S1100000, .i32⟩
  | 16 => ⟨S1x1000000, .i32⟩
  | 17 => ⟨S1000000, .i32⟩
  | 18 => ⟨S1100000, .i32⟩
  | 19 => ⟨S_, .f32⟩
  | 20 => ⟨S1100000, .f32⟩
  | 21 => ⟨S_, .f32⟩
  | 22 => ⟨S100000, .f32⟩
  | 23 => ⟨S1100000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1100000, .i32⟩
  | 35 => ⟨S1100000, .i1⟩
  | 36 => ⟨S_, .i32⟩
  | 37 => ⟨S1100000, .i32⟩
  | 38 => ⟨S1100000, .i32⟩
  | 39 => ⟨S1100000, .i32⟩
  | 40 => ⟨S1100000x1, .i32⟩
  | 41 => ⟨S1100000, .f32⟩
  | 42 => ⟨S_, .i32⟩
  | 43 => ⟨S1100000, .i32⟩
  | 44 => ⟨S1100000, .i1⟩
  | 45 => ⟨S_, .i32⟩
  | 46 => ⟨S1100000, .i32⟩
  | 47 => ⟨S1100000, .i32⟩
  | 48 => ⟨S1100000, .i32⟩
  | 49 => ⟨S1100000x1, .i32⟩
  | 50 => ⟨S1100000, .f32⟩
  | 51 => ⟨S1100000, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S_, .i32⟩
  | 61 => ⟨S1100000, .i32⟩
  | 62 => ⟨S1100000, .i1⟩
  | 63 => ⟨S_, .i32⟩
  | 64 => ⟨S1100000, .i32⟩
  | 65 => ⟨S1100000, .i32⟩
  | 66 => ⟨S1100000, .i32⟩
  | 67 => ⟨S1100000x1, .i32⟩
  | 68 => ⟨S1100000x64, .f32⟩
  | 69 => ⟨S1100000x1, .f32⟩
  | 70 => ⟨S1100000x64, .f32⟩
  | 71 => ⟨S1100000x64, .f32⟩
  | 72 => ⟨S_, .f32⟩
  | 73 => ⟨S100000x64, .f32⟩
  | 74 => ⟨S1100000x1, .i32⟩
  | 75 => ⟨S100000x64, .f32⟩
  | 76 => ⟨S1x64, .f32⟩
  | 77 => ⟨S100000x64, .f32⟩
  | 78 => ⟨S100000x64, .f32⟩
  | 79 => ⟨S100000x64, .f32⟩
  | 80 => ⟨S_, .i32⟩
  | 81 => ⟨S1100000, .i32⟩
  | 82 => ⟨S1100000, .i1⟩
  | 83 => ⟨S_, .i32⟩
  | 84 => ⟨S1100000, .i32⟩
  | 85 => ⟨S1100000, .i32⟩
  | 86 => ⟨S1100000, .i32⟩
  | 87 => ⟨S1100000x1, .i32⟩
  | 88 => ⟨S1100000x64, .f32⟩
  | 89 => ⟨S1100000x1, .f32⟩
  | 90 => ⟨S1100000x64, .f32⟩
  | 91 => ⟨S1100000x64, .f32⟩
  | 92 => ⟨S_, .f32⟩
  | 93 => ⟨S100000x64, .f32⟩
  | 94 => ⟨S1100000x1, .i32⟩
  | 95 => ⟨S100000x64, .f32⟩
  | 96 => ⟨S1x64, .f32⟩
  | 97 => ⟨S100000x64, .f32⟩
  | 98 => ⟨S100000x64, .f32⟩
  | 99 => ⟨S100000x64, .f32⟩
  | 100 => ⟨S_, .i32⟩
  | 101 => ⟨S1100000, .i32⟩
  | 102 => ⟨S1100000, .i1⟩
  | 103 => ⟨S_, .i32⟩
  | 104 => ⟨S1100000, .i32⟩
  | 105 => ⟨S1100000, .i32⟩
  | 106 => ⟨S1100000, .i32⟩
  | 107 => ⟨S1100000x1, .i32⟩
  | 108 => ⟨S1100000x64, .f32⟩
  | 109 => ⟨S1100000x1, .f32⟩
  | 110 => ⟨S1100000x64, .f32⟩
  | 111 => ⟨S1100000x64, .f32⟩
  | 112 => ⟨S_, .f32⟩
  | 113 => ⟨S100000x64, .f32⟩
  | 114 => ⟨S1100000x1, .i32⟩
  | 115 => ⟨S100000x64, .f32⟩
  | 116 => ⟨S1x64, .f32⟩
  | 117 => ⟨S100000x64, .f32⟩
  | 118 => ⟨S100000x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x40, .f32⟩
  | 125 => ⟨S1x40, .f32⟩
  | 126 => ⟨S100000x40, .f32⟩
  | 127 => ⟨S100000x40, .f32⟩
  | _ => ⟨S100000x256, .f32⟩

abbrev hbmTy0_1 (i : Nat) : BufTy := match i % 128 with
  | 0 => ⟨S_, .f32⟩
  | 1 => ⟨S100000x40, .f32⟩
  | 2 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_12 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_15 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_call2_cst : Ref sig .tc := ⟨.hbm, 128, rfl⟩
abbrev main_call2_v0 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1100000x1_S1100000x64_0_1 : S1100000x1.BroadcastsInDim S1100000x64 (![0, 1] : Fin 2 → Fin S1100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x40_S100000x40_1_0_0_1_n_n_wf : DotDims.WF S100000x64 S64x40 S100000x40 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel program's run with its result named.  The generated frame certificate runs @main as eleven
  segments (six stretches of host operations and the five matrix-product regions) and reads the final state against
  the buffer contents at the last segment boundary, `Gen.W11`, keeping of that only that the argument arrays end as
  launched.  The same run, read at the result buffer as well, says that the result array ends holding `Gen.W11` at
  that buffer: the last region's output array after its write-backs.
-/
import proofs.«114021_j8967891714119_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the
    last boundary's contents of its buffer and every argument array as launched. -/
theorem run_value : θ_run defs (onTc (τ := τ) (main (F := F))) ⟨m, fun _ => 0, ρ⟩ (fun r => ∀ c : Dev nD,
      r.2.mem ((c.tc : Thread nD τ).loc main_v85) = W11 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v85 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.RunValue

end
-- ==== Proof.Spec.lean ====
/-
  The network both programs compute, as functions of whole arrays on the extended reals.

  A graph of N = 100000 nodes and E = 1000000 edges is given as a 2 × E array of node numbers; N self loops are
  appended, so there are E + N = 1100000 edges with sources `src` and destinations `dst`.  The degree of a node is the
  number of edges that end in it, `dinv` is degree^(-1/2) where the degree is positive and 0 elsewhere, and the weight
  of an edge is dinv(src) · dinv(dst) (`nrm`).  A graph convolution of node features hw with bias b gathers the
  source row of every edge, scales it by the edge's weight, sums the rows edge by edge into the destination nodes and
  adds the bias (`conv`).  The network is h0 = max(x·Wx + bx, 0), l1 = conv(h0·W1, b1), l2 = conv(l1·W2, b2),
  l3 = conv(l2·W3, b3) and the result max(((l1 + l2 + l3) / 3)·Wz + bz, 0) (`net`).

  Every function here is the composition of the host's operations in the order the reference program applies them.
-/
import proofs.«114021_j8967891714119_1_alg».proof.Proof.Gen.ReferenceIdeal
import Idealize.ShloMosaic.PureOps.Ideal

noncomputable section

namespace Cert.GcnSpec

open Idealize.ShloMosaic Cert.ReferenceIdeal Cert.ReferenceIdeal.Gen

/-- A float array of the given shape at the ideal instance: extended reals. -/
abbrev FA (S : Shape) : Type := FVec Ideal S .f32

/-- An array of 32-bit integers of the given shape. -/
abbrev IA (S : Shape) : Type := IVec S 32

/-- Row `r` of the edge array followed by the node numbers 0 … N-1 (the self loops). -/
def withLoops (row : IA S1x1000000) : IA S1100000 :=
  concatenate S1100000 0 [⟨S1000000, (shapeCast _ row shapeCasts_S1x1000000_S1000000)⟩, ⟨S100000, (iotaInDim S100000 32 0)⟩] concatenates_S1000000_S100000_S1100000_d0

/-- The source node of every edge. -/
def src (e : IA S2x1000000) : IA S1100000 :=
  withLoops (extractStridedSlice S1x1000000 ![0, 0] e slices_S2x1000000_S1x1000000_0_0)

/-- The destination node of every edge. -/
def dst (e : IA S2x1000000) : IA S1100000 :=
  withLoops (extractStridedSlice S1x1000000 ![1, 0] e slices_S2x1000000_S1x1000000_1_0)

/-- Node numbers as gather indices: a negative number counts from the end. -/
def gidx (s : IA S1100000) : IA S1100000x1 :=
  broadcastInDim S1100000x1 ![0] bcast_S1100000_S1100000x1_0
    (select (cmpi .slt s (broadcastInDim S1100000 ![] bcast_S_S1100000 (constantI S_ 32 0#32)))
      (addi s (broadcastInDim S1100000 ![] bcast_S_S1100000 (constantI S_ 32 100000#32))) s)

/-- The number of edges ending in each node. -/
def deg (e : IA S2x1000000) : FA S100000 :=
  Host.scatterAdd scatter_S100000_S1100000x1_S1100000_n_0_0_1
    (broadcastInDim S100000 ![] bcast_S_S100000 (constant (F := Ideal) S_ .f32 0x00000000#32))
    (broadcastInDim S1100000x1 ![0] bcast_S1100000_S1100000x1_0 (dst e))
    (broadcastInDim S1100000 ![] bcast_S_S1100000 (constant (F := Ideal) S_ .f32 0x3F800000#32))

/-- degree^(-1/2) where the degree is positive, 0 elsewhere. -/
def dinv (e : IA S2x1000000) : FA S100000 :=
  select (cmpf .ogt (deg e) (broadcastInDim S100000 ![] bcast_S_S100000 (constant (F := Ideal) S_ .f32 0x00000000#32)))
    (Host.rsqrt (deg e))
    (broadcastInDim S100000 ![] bcast_S_S100000 (id (constant (F := Ideal) S_ .f32 0x00000000#32)))

/-- The weight of every edge: dinv at its source times dinv at its destination. -/
def nrm (e : IA S2x1000000) : FA S1100000 :=
  mulf (Host.gather gather_S100000_S1100000x1_S1100000_n_0_n_n_0_1_1 (dinv e) (gidx (src e)))
    (Host.gather gather_S100000_S1100000x1_S1100000_n_0_n_n_0_1_1 (dinv e) (gidx (dst e)))

/-- The all-zero N × 64 array. -/
def zeroN64 : FA S100000x64 := broadcastInDim S100000x64 ![] bcast_S_S100000x64 (constant (F := Ideal) S_ .f32 0x00000000#32)

/-- A vector of 64 entries as every row of an N × 64 array. -/
def rows64 (b : FA S1x64) : FA S100000x64 := broadcastInDim S100000x64 ![0, 1] bcast_S1x64_S100000x64_0_1 b

/-- A vector of 64 entries as a 1 × 64 array. -/
def row64 (b : FA S64) : FA S1x64 := broadcastInDim S1x64 ![1] bcast_S64_S1x64_1 b

/-- Graph convolution of the node features `hw` with bias `b`: gather, scale, sum into destinations, add the bias. -/
def conv (hw : FA S100000x64) (b : FA S64) (e : IA S2x1000000) : FA S100000x64 :=
  addf (Host.scatterAdd scatter_S100000x64_S1100000x1_S1100000x64_1_0_0_1 zeroN64
      (broadcastInDim S1100000x1 ![0] bcast_S1100000_S1100000x1_0 (dst e))
      (mulf (Host.gather gather_S100000x64_S1100000x1_S1100000x64_1_0_n_n_0_1_164 hw (gidx (src e)))
        (broadcastInDim S1100000x64 ![0, 1] bcast_S1100000x1_S1100000x64_0_1
          (broadcastInDim S1100000x1 ![0] bcast_S1100000_S1100000x1_0 (nrm e)))))
    (rows64 (row64 b))

/-- x·Wx + b, then max with 0, for a bias given as a 1 × 64 array. -/
def lin0 (x : FA S100000x256) (w : FA S256x64) (b : FA S1x64) : FA S100000x64 :=
  maximumf (addf (Host.dotGeneral dot_S100000x256_S256x64_S100000x64_1_0_0_1_n_n none x w) (rows64 b)) zeroN64

/-- h·W for N × 64 features. -/
def dot64 (h : FA S100000x64) (w : FA S64x64) : FA S100000x64 :=
  Host.dotGeneral dot_S100000x64_S64x64_S100000x64_1_0_0_1_n_n none h w

/-- h·W + b for a bias given as a 1 × 64 array. -/
def linb (h : FA S100000x64) (w : FA S64x64) (b : FA S1x64) : FA S100000x64 :=
  addf (dot64 h w) (rows64 b)

/-- The mean of three feature arrays as the reference takes it: the sum divided by 3. -/
def mean3 (l1 l2 l3 : FA S100000x64) : FA S100000x64 :=
  Host.divf (addf (addf l1 l2) l3) (broadcastInDim S100000x64 ![] bcast_S_S100000x64 (constant (F := Ideal) S_ .f32 0x40400000#32))

/-- The last layer: mean of the three convolutions times Wz, plus the bias (a 1 × 40 array), max with 0. -/
def fin (l1 l2 l3 : FA S100000x64) (w : FA S64x40) (b : FA S1x40) : FA S100000x40 :=
  maximumf (addf (Host.dotGeneral dot_S100000x64_S64x40_S100000x40_1_0_0_1_n_n none (mean3 l1 l2 l3) w)
      (broadcastInDim S100000x40 ![0, 1] bcast_S1x40_S100000x40_0_1 b))
    (broadcastInDim S100000x40 ![] bcast_S_S100000x40 (constant (F := Ideal) S_ .f32 0x00000000#32))

/-- The whole network. -/
def net (x : FA S100000x256) (e : IA S2x1000000) (wx : FA S256x64) (bx : FA S64)
    (w1 : FA S64x64) (b1 : FA S64) (w2 : FA S64x64) (b2 : FA S64)
    (w3 : FA S64x64) (b3 : FA S64) (wz : FA S64x40) (bz : FA S40) : FA S100000x40 :=
  fin (conv (dot64 (lin0 x wx (row64 bx)) w1) b1 e)
    (conv (dot64 (conv (dot64 (lin0 x wx (row64 bx)) w1) b1 e) w2) b2 e)
    (conv (dot64 (conv (dot64 (conv (dot64 (lin0 x wx (row64 bx)) w1) b1 e) w2) b2 e) w3) b3 e)
    wz (broadcastInDim S1x40 ![1] bcast_S40_S1x40_1 bz)

end Cert.GcnSpec

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowTileDot.lean ====
/-
  A row tile of a matrix product.  Cut the rows of an M × K array X into tiles of B rows; the tile that holds row r at its
  local row p is a B × K array T with T(p, k) = X(r, k).  Multiplying the tile by the whole K × N array W gives, at the
  entry (p, c), the sum over k < K of T(p, k) · W(k, c) = X(r, k) · W(k, c): the entry (r, c) of the whole product X · W.
  Nothing but the two sums being the same sum term by term is used, so the statement holds on the extended reals with
  no finiteness assumption.  The tile's product is the kernel's (into a zero accumulator); the whole product is the
  host's.  Each operand of the tile's product may be a copy of the whole array's rows or columns in any float format:
  only the values at the entries the sum visits are compared.
-/
import Idealize.ShloMosaic.PureOps.Ideal.Laws
import Idealize.ShloMosaic.Lib.ValueIdx
import proofs.«114021_j8967891714119_1_alg».proof.Proof.LibPlainDot

noncomputable section

namespace Cert.LibRowTileDot

open Idealize.ShloMosaic Idealize.ShloMosaic.ValueIdx

variable {M B K N : Nat} {φ₁ φ₂ ψ₁ ψ₂ : FTy}
  (Dt : DotDims (⟨2, ![B, K]⟩ : Shape) (⟨2, ![K, N]⟩ : Shape) (⟨2, ![B, N]⟩ : Shape))
  (htrank : Dt.contr.rank = 1) (htsize : Dt.contr.size ⟨0, by omega⟩ = K)
  (htlc : Dt.lhsContracting = [1]) (htrc : Dt.rhsContracting = [0])
  (htL0 : ∀ j k, (Dt.lhsIdx j k 0).val = (j 0).val) (htR1 : ∀ j k, (Dt.rhsIdx j k 1).val = (j 1).val)
  (Dh : DotDims (⟨2, ![M, K]⟩ : Shape) (⟨2, ![K, N]⟩ : Shape) (⟨2, ![M, N]⟩ : Shape))
  (hhrank : Dh.contr.rank = 1) (hhsize : Dh.contr.size ⟨0, by omega⟩ = K)
  (hhlc : Dh.lhsContracting = [1]) (hhrc : Dh.rhsContracting = [0])
  (hhL0 : ∀ j k, (Dh.lhsIdx j k 0).val = (j 0).val) (hhR1 : ∀ j k, (Dh.rhsIdx j k 1).val = (j 1).val)

include htrank htsize htlc htrc htL0 htR1 hhrank hhsize hhlc hhrc hhL0 hhR1 in
/-- Entry (p, c) of the tile's product into a zero accumulator is entry (r, c) of the whole host product, when the
    tile's row p is the whole array's row r and the tile's right operand has the whole right operand's column c. -/
theorem tile_entry (prec prec' : Option ContractPrecision) (sched : HostSchedule)
    (T : FVec Ideal (⟨2, ![B, K]⟩ : Shape) φ₁) (Wt : FVec Ideal (⟨2, ![K, N]⟩ : Shape) φ₂)
    (X : FVec Ideal (⟨2, ![M, K]⟩ : Shape) ψ₁) (W : FVec Ideal (⟨2, ![K, N]⟩ : Shape) ψ₂)
    (p : Fin B) (c : Fin N) (r : Fin M)
    (hT : ∀ k : Fin K, (T (ix2 p k) : EReal) = X (ix2 r k)) (hW : ∀ k : Fin K, (Wt (ix2 k c) : EReal) = W (ix2 k c)) :
    FloatOps.matmul Dt prec T Wt (constant (⟨2, ![B, N]⟩ : Shape) .f32 0x00000000#32) (ix2 p c)
      = FloatOps.dotGeneral Dh prec' sched X W (ix2 r c) := by
  rw [Cert.LibPlainDot.matmul_zero_apply Dt htrank htsize htlc htrc htL0 htR1 prec T Wt p c,
    Cert.LibPlainDot.dotGeneral_apply Dh hhrank hhsize hhlc hhrc hhL0 hhR1 prec' sched X W r c]
  exact Finset.sum_congr rfl fun k _ => by rw [hT k, hW k]

end Cert.LibRowTileDot

end
-- ==== Proof.Region0.lean ====
/-
  The first region's result array as one function of whole arrays.

  The region cuts the 100000 rows of the N × 256 input x into 20 tiles of 5000 rows; at tile t it reads rows
  5000 t … 5000 t + 4999 of x, the whole 256 × 64 weight W and the whole 1 × 64 bias b, and writes rows
  5000 t … 5000 t + 4999 of the N × 64 result.  What it writes at local row p and column q is
      max( Σ_k x(r, k) · W(k, q) + b(0, q), 0 )      with r = 5000 t + p.
  The host's first layer takes the product x · W over all 100000 rows at once, adds the bias laid along every row and
  takes the maximum with 0.  A row tile of a matrix product is the rows of the whole product, and the bias row read
  through either broadcast is b(0, q); so every tile writes its block of the host's function.  The 20 tiles cover the
  array (row r lies in tile r / 5000), hence the array ends holding that function.
-/
import proofs.«114021_j8967891714119_1_alg».proof.Proof.Gen.KernelIdeal.Frame
import proofs.«114021_j8967891714119_1_alg».proof.Proof.Spec
import proofs.«114021_j8967891714119_1_alg».proof.Proof.LibRowTileDot
import Idealize.ShloMosaic.Lib.Pipeline.Value
import Idealize.ShloMosaic.Lib.ValueLayout
import Idealize.ShloMosaic.Lib.IdealHost
import Idealize.ShloMosaic.Lib.KernelVsHost

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.RegionValue.R0

/-- Entry (p, q) of what the kernel stores for a tile is entry (r, q) of the first layer of the whole arrays, when row
    p of the input tile is row r of the input, the weight tile has the weight's column q and the bias tile the bias's
    entry q. -/
theorem pay0_apply (x0 : Vec Ideal S5000x256 .f32) (x1 : Vec Ideal S256x64 .f32) (x2 : Vec Ideal S1x64 .f32)
    (x : Cert.GcnSpec.FA Cert.ReferenceIdeal.S100000x256) (w : Cert.GcnSpec.FA Cert.ReferenceIdeal.S256x64)
    (b : Cert.GcnSpec.FA Cert.ReferenceIdeal.S1x64) (p : Fin 5000) (q : Fin 64) (r : Fin 100000)
    (h0 : ∀ k : Fin 256, x0 (ix2 p k) = x (ix2 r k)) (h1 : ∀ k : Fin 256, x1 (ix2 k q) = w (ix2 k q))
    (h2 : x2 (ix2 (0 : Fin 1) q) = b (ix2 (0 : Fin 1) q)) :
    k0_pay1 (F := Ideal) x0 x1 x2 (ix2 p q) = Cert.GcnSpec.lin0 x w b (ix2 r q) := by
  unfold k0_pay1 Cert.GcnSpec.lin0 Cert.GcnSpec.rows64 Cert.GcnSpec.zeroN64
  simp only [maximumf_apply, addf_apply]
  refine congrArg₂ max (congrArg₂ HAdd.hAdd ?_ ?_) ?_
  · exact Cert.LibRowTileDot.tile_entry dot_S5000x256_S256x64_S5000x64_1_0_0_1_n_n rfl rfl rfl rfl (fun _ _ => rfl) (fun _ _ => rfl)
      Cert.ReferenceIdeal.dot_S100000x256_S256x64_S100000x64_1_0_0_1_n_n rfl rfl rfl rfl (fun _ _ => rfl) (fun _ _ => rfl)
      none none _ _ _ x w p q r (fun k => h0 k) (fun k => h1 k)
  · rw [shapeCast_self, broadcastTo_1b_ab_apply, broadcastInDim_oneRow_apply]
    exact h2
  · rw [broadcast_apply, broadcastInDim_scalar_apply, constant_apply]
    rfl

/-- The zero offsets, as the constant function. -/
theorem hz : (![0, 0] : Fin 2 → Nat) = fun _ => 0 := funext fun a => by fin_cases a <;> rfl

/-- The index maps over the grid: the input window and the result window sit at row tile t, the weight and the bias
    windows at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b)) (c : Dev nD) (t : Fin cfg0.N)

/-- The input window's block at tile t holds rows 5000 t … 5000 t + 4999 of the input. -/
theorem iblk0_0_apply (y : S5000x256.Idx) (k : S100000x256.Idx)
    (hk0 : (k 0).val = t.val * 5000 + (y 0).val) (hk1 : (k 1).val = (y 1).val) :
    (iblk0 V c 0 t : Vec Ideal S5000x256 .f32) y = (V c main_arg0 : S100000x256.Idx → EReal) k := by
  obtain ⟨e0, e1, -⟩ := idx0 t
  unfold iblk0
  rw [View.read_apply]
  show V c main_arg0 _ = V c main_arg0 k
  refine congrArg _ (funext fun a => Fin.ext ?_)
  match a with
  | ⟨0, _⟩ => show win0_0.index t (0 : Fin 2) * 5000 + 1 * (y 0).val = (k 0).val; omega
  | ⟨1, _⟩ => show win0_0.index t (1 : Fin 2) * 256 + 1 * (y 1).val = (k 1).val; omega

/-- The weight window's block is the whole weight at every tile. -/
theorem iblk0_1_apply (y : S256x64.Idx) :
    (iblk0 V c 1 t : Vec Ideal S256x64 .f32) y = (V c main_arg2 : S256x64.Idx → EReal) y := by
  obtain ⟨-, -, e0, e1, -⟩ := idx0 t
  unfold iblk0
  rw [View.read_apply]
  show V c main_arg2 _ = V c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 64 + 1 * (y 1).val = (y 1).val; omega

/-- The bias window's block is the whole bias at every tile. -/
theorem iblk0_2_apply (y : S1x64.Idx) :
    (iblk0 V c 2 t : Vec Ideal S1x64 .f32) y = (V c main_v31 : S1x64.Idx → EReal) y := by
  obtain ⟨-, -, -, -, e0, e1, -⟩ := idx0 t
  unfold iblk0
  rw [View.read_apply]
  show V c main_v31 _ = V c main_v31 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What tile t writes back is its block of the first layer of the whole arrays as the region finds them. -/
theorem flushed0 :
    (dat0 (F := Ideal) V c).flushed 3 t = ((cfg0.win 3).blk t).view.read (Elt Ideal)
      (Cert.GcnSpec.lin0 (V c main_arg0) (V c main_arg2) (V c main_v31)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, e0, e1⟩ := idx0 t
  have hN : t.val < 20 := Nat.lt_of_lt_of_eq t.isLt N_0
  have hr : t.val * 5000 + p.val < 100000 := by have := p.isLt; omega
  have hemb : ((cfg0.win 3).blk t).view.emb (ix2 p q) = (ix2 (⟨t.val * 5000 + p.val, hr⟩ : Fin 100000) q : S100000x64.Idx) := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  rw [View.read_apply]
  show k0_pay1 (iblk0 V c 0 t) (iblk0 V c 1 t) (iblk0 V c 2 t) (ix2 p q)
    = Cert.GcnSpec.lin0 (V c main_arg0) (V c main_arg2) (V c main_v31) (((cfg0.win 3).blk t).view.emb (ix2 p q))
  rw [hemb]
  refine pay0_apply (iblk0 V c 0 t) (iblk0 V c 1 t) (iblk0 V c 2 t) _ _ _ p q ⟨_, hr⟩ (fun k => ?_) (fun k => ?_) ?_
  · exact iblk0_0_apply V c t (ix2 p k) (ix2 ⟨_, hr⟩ k) rfl rfl
  · exact iblk0_1_apply V c t (ix2 k q)
  · exact iblk0_2_apply V c t (ix2 (0 : Fin 1) q)

end Blocks

/-- An index of the result array is in tile t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v33).slice (win0_3.rect t)).set ↔ _
  rw [View.set_slice_whole, Rect.mem_set_unit]
  exact Iff.rfl

/-- Every index of the result array is in the block of the tile that holds its row: row r is in tile r / 5000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, e0, e1⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e1]; omega

end Cert.KernelIdeal.RegionValue.R0

namespace Cert.KernelIdeal.RegionValue

open Cert.KernelIdeal.RegionValue.R0

/-- The result array after the first region: the first layer of the input, the weight and the bias as the region finds
    them, as one function of whole arrays. -/
theorem out0 (V : (c : Dev nD) → (b : Ref sig .tc) → Buf (Elt Ideal) ((c : Thread nD τ).loc b)) (c : Dev nD) :
    (dat0 (F := Ideal) V c).arrAt 3 cfg0.N = Cert.GcnSpec.lin0 (V c main_arg0) (V c main_arg2) (V c main_v31) :=
  (dat0 (F := Ideal) V c).arrAt_eq_of_cover 3 _ (fun t _ => flushed0 V c t) cover0

end Cert.KernelIdeal.RegionValue

end
-- ==== Proof.RegionToolsA.lean ====
/-
  One row tile of h·W + b, entry by entry.  The kernel multiplies a tile of 5000 rows of the N × 64 features h by the
  whole 64 × 64 weight W into a zero accumulator and adds the 1 × 64 bias b to every row.  If the tile's row p is row r of
  h, its entry (p, q) is the sum over k < 64 of h(r, k) · W(k, q), plus b(0, q): entry (r, q) of the host's
  whole-array product h·W with b added to every row.  On the extended reals the change of format of the two operands
  before the product is the identity, a reshape of an array to its own shape is the identity, and both ways of
  repeating the bias row read row 0.  No finiteness is used.
-/
import proofs.«114021_j8967891714119_1_alg».proof.Proof.Gen.KernelIdeal
import proofs.«114021_j8967891714119_1_alg».proof.Proof.Spec
import proofs.«114021_j8967891714119_1_alg».proof.Proof.LibRowTileDot
import Idealize.ShloMosaic.Lib.Pipeline.Value
import Idealize.ShloMosaic.Lib.ValueLayout
import Idealize.ShloMosaic.Lib.ValueIdx

noncomputable section

namespace Cert.KernelIdeal.RegionValue.LinA

open Cert.KernelIdeal Cert.KernelIdeal.Gen
open Idealize.ShloMosaic Idealize.ShloMosaic.ValueIdx

/-- The offsets (0, 0), however they are spelt. -/
theorem zero_offsets : (![0, 0] : Fin 2 → Nat) = fun _ => 0 := funext fun a => by fin_cases a <;> rfl

/-- The host's repetition of a 1 × 64 array over 100000 rows reads, at (r, q), the one row at q. -/
theorem rows64_apply (b : Cert.GcnSpec.FA Cert.ReferenceIdeal.S1x64) (r : Fin 100000) (q : Fin 64) :
    Cert.GcnSpec.rows64 b (ix2 r q) = b (ix2 (0 : Fin 1) q) := by
  unfold Cert.GcnSpec.rows64
  refine broadcastInDim_apply _ _ b (ix2 r q) (ix2 (0 : Fin 1) q) fun a => ?_
  match a with
  | ⟨0, _⟩ => rfl
  | ⟨1, _⟩ => rfl

/-- What the kernel stores for one tile: the tile x0 times the weight x1 into the zero accumulator, plus the bias row x2
    repeated over the tile's rows. -/
def linTile (x0 : Vec Ideal S5000x64 .f32) (x1 : Vec Ideal S64x64 .f32) (x2 : Vec Ideal S1x64 .f32) : FVec Ideal S5000x64 .f32 :=
  addf
    (matmul dot_S5000x64_S64x64_S5000x64_1_0_0_1_n_n none
      (truncf .bf16 (shapeCast S5000x64 x0 shapeCasts_S5000x64_S5000x64) bitsLt_bf16_f32) (truncf .bf16 x1 bitsLt_bf16_f32)
      (constant S5000x64 .f32 0x00000000#32))
    (broadcastTo S5000x64 (shapeCast S1x64 x2 shapeCasts_S1x64_S1x64) broadcasts_S1x64_S5000x64)

/-- Entry (p, q) of the tile's result is entry (r, q) of h·W + b, when the tile's row p is h's row r, the tile's weight
    has W's column q, and the tile's bias has b's entry q. -/
theorem linTile_entry (x0 : Vec Ideal S5000x64 .f32) (x1 : Vec Ideal S64x64 .f32) (x2 : Vec Ideal S1x64 .f32)
    (H : Cert.GcnSpec.FA Cert.ReferenceIdeal.S100000x64) (W : Cert.GcnSpec.FA Cert.ReferenceIdeal.S64x64)
    (b : Cert.GcnSpec.FA Cert.ReferenceIdeal.S1x64) (p : Fin 5000) (q : Fin 64) (r : Fin 100000)
    (h0 : ∀ k : Fin 64, x0 (ix2 p k) = H (ix2 r k)) (h1 : ∀ k : Fin 64, x1 (ix2 k q) = W (ix2 k q))
    (h2 : x2 (ix2 (0 : Fin 1) q) = b (ix2 (0 : Fin 1) q)) :
    linTile x0 x1 x2 (ix2 p q) = Cert.GcnSpec.linb H W b (ix2 r q) := by
  unfold linTile Cert.GcnSpec.linb Cert.GcnSpec.dot64
  simp only [shapeCast_self]
  rw [addf_apply, addf_apply, rows64_apply, broadcastTo_1b_ab_apply, h2]
  refine congrArg (· + b (ix2 (0 : Fin 1) q)) ?_
  exact Cert.LibRowTileDot.tile_entry dot_S5000x64_S64x64_S5000x64_1_0_0_1_n_n rfl rfl rfl rfl (fun _ _ => rfl) (fun _ _ => rfl)
    Cert.ReferenceIdeal.dot_S100000x64_S64x64_S100000x64_1_0_0_1_n_n rfl rfl rfl rfl (fun _ _ => rfl) (fun _ _ => rfl)
    none none .single (truncf .bf16 x0 bitsLt_bf16_f32) (truncf .bf16 x1 bitsLt_bf16_f32) H W p q r h0 h1

end Cert.KernelIdeal.RegionValue.LinA

end
-- ==== Proof.Region1.lean ====
/-
  The whole output array of the second matrix-product kernel.  Its grid has 20 points; point t multiplies rows
  5000·t … 5000·t + 4999 of the N × 64 features h by the whole 64 × 64 weight W, adds the 1 × 64 bias b to every row, and
  writes the 5000 × 64 result back over the same rows of the output.  Every point's result is therefore the
  restriction to its rows of one whole-array function, h·W + b with b repeated over all N = 100000 rows, and the 20
  row blocks cover the array (row r lies in the block of point r / 5000): the output array ends holding that function.
-/
import proofs.«114021_j8967891714119_1_alg».proof.Proof.Gen.KernelIdeal.Frame
import proofs.«114021_j8967891714119_1_alg».proof.Proof.Spec
import proofs.«114021_j8967891714119_1_alg».proof.Proof.RegionToolsA
import Idealize.ShloMosaic.Lib.Pipeline.Value
import Idealize.ShloMosaic.Lib.ValueIdx

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

namespace R1

/-- The kernel's stored value at entry (p, q) of a tile whose row p is row r of h. -/
theorem pay_entry (x0 : Vec Ideal S5000x64 .f32) (x1 : Vec Ideal S64x64 .f32) (x2 : Vec Ideal S1x64 .f32)
    (H : Cert.GcnSpec.FA Cert.ReferenceIdeal.S100000x64) (W : Cert.GcnSpec.FA Cert.ReferenceIdeal.S64x64)
    (b : Cert.GcnSpec.FA Cert.ReferenceIdeal.S1x64) (p : Fin 5000) (q : Fin 64) (r : Fin 100000)
    (h0 : ∀ k : Fin 64, x0 (ix2 p k) = H (ix2 r k)) (h1 : ∀ k : Fin 64, x1 (ix2 k q) = W (ix2 k q))
    (h2 : x2 (ix2 (0 : Fin 1) q) = b (ix2 (0 : Fin 1) q)) :
    k1_pay1 x0 x1 x2 (ix2 p q) = Cert.GcnSpec.linb H W b (ix2 r q) :=
  LinA.linTile_entry x0 x1 x2 H W b p q r h0 h1 h2

variable (V : (c : Dev nD) → (b : Ref sig .tc) → Buf (Elt Ideal) ((c : Thread nD τ).loc b))

/-- The block indices over the grid: at point t the feature tile and the output tile are row block t, the weight and
    the bias are whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is rows 5000·t … 5000·t + 4999 of h·W + b. -/
theorem flushed_eq (c : Dev nD) (t : Fin cfg1.N) :
    (dat1 (F := Ideal) V c).flushed 3 t
      = ((cfg1.win 3).blk t).view.read (Elt Ideal) (Cert.GcnSpec.linb (V c main_v33) (V c main_arg4) (V c main_v30)) := by
  show (cfg1.win 3).cut (grid1.coords t) ((dat1 V c).after 3 t) = _
  rw [after1_3]
  unfold out1_3
  rw [View.canon_unit_zero LinA.zero_offsets]
  simp only [View.ld_unit_zero (S := S5000x64) LinA.zero_offsets, View.ld_unit_zero (S := S64x64) LinA.zero_offsets,
    View.ld_unit_zero (S := S1x64) LinA.zero_offsets]
  obtain ⟨e00, e01, e10, e11, e20, e21, e30, e31⟩ := idx_facts t
  have ht : t.val < 20 := N_1 ▸ t.isLt
  funext j
  obtain ⟨p, q, rfl⟩ : ∃ (p : Fin 5000) (q : Fin 64), j = ix2 p q := ⟨j 0, j 1, eq_ix2 j⟩
  let r : Fin 100000 := ⟨t.val * 5000 + p.val, by have := p.isLt; omega⟩
  have hemb : (((cfg1.win 3).blk t).view.emb (ix2 p q) : Cert.ReferenceIdeal.S100000x64.Idx) = ix2 r q := by
    funext a; apply Fin.ext
    match a with
    | ⟨0, _⟩ => show win1_3.index t (0 : Fin 2) * 5000 + 1 * p.val = t.val * 5000 + p.val; rw [e30]; omega
    | ⟨1, _⟩ => show win1_3.index t (1 : Fin 2) * 64 + 1 * q.val = q.val; rw [e31]; omega
  show k1_pay1 (iblk1 V c 0 t) (iblk1 V c 1 t) (iblk1 V c 2 t) (ix2 p q)
     = Cert.GcnSpec.linb (V c main_v33) (V c main_arg4) (V c main_v30) (((cfg1.win 3).blk t).view.emb (ix2 p q))
  rw [hemb]
  refine pay_entry (iblk1 V c 0 t) (iblk1 V c 1 t) (iblk1 V c 2 t) _ _ _ p q r (fun k => ?_) (fun k => ?_) ?_
  · show V c main_v33 (((cfg1.win 0).blk t).view.emb (ix2 p k)) = V c main_v33 (ix2 r k)
    refine congrArg (V c main_v33) ?_
    funext a; apply Fin.ext
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 64 + 1 * k.val = k.val; rw [e10]; omega
    | ⟨1, _⟩ => show win1_1.index t (1 : Fin 2) * 64 + 1 * q.val = q.val; rw [e11]; omega
  · show V c main_v30 (((cfg1.win 2).blk t).view.emb (ix2 (0 : Fin 1) q)) = V c main_v30 (ix2 (0 : Fin 1) q)
    refine congrArg (V c main_v30) ?_
    funext a; apply Fin.ext
    match a with
    | ⟨0, _⟩ => show win1_2.index t (0 : Fin 2) * 1 + 1 * 0 = 0; rw [e20]
    | ⟨1, _⟩ => show win1_2.index t (1 : Fin 2) * 64 + 1 * q.val = q.val; rw [e21]; omega

/-- An index of the output array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v34).slice (win1_3.rect t)).set ↔ _
  rw [View.set_slice_whole, Rect.mem_set_unit]
  exact Iff.rfl

/-- Row r of the output array lies in the block of point r / 5000, which writes back. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 64 ≤ (i 1).val ∧ (i 1).val < win1_3.index t (1 : Fin 2) * 64 + 64
    rw [e31]; omega

end R1

variable (V : (c : Dev nD) → (b : Ref sig .tc) → Buf (Elt Ideal) ((c : Thread nD τ).loc b))

/-- The output array after the region is h·W + b of the arrays the region finds. -/
theorem out1 (c : Dev nD) :
    (dat1 (F := Ideal) V c).arrAt 3 cfg1.N = Cert.GcnSpec.linb (V c main_v33) (V c main_arg4) (V c main_v30) :=
  (dat1 V c).arrAt_eq_of_cover 3 (Cert.GcnSpec.linb (V c main_v33) (V c main_arg4) (V c main_v30))
    (fun t _ => R1.flushed_eq V c t) R1.cover

end Cert.KernelIdeal.RegionValue

end
-- ==== Proof.Region2.lean ====
/-
  The whole output array of the third matrix-product kernel.  Its grid has 20 points; point t multiplies rows
  5000·t … 5000·t + 4999 of the N × 64 features h by the whole 64 × 64 weight W, adds the 1 × 64 bias b to every row, and
  writes the 5000 × 64 result back over the same rows of the output.  Every point's result is therefore the
  restriction to its rows of one whole-array function, h·W + b with b repeated over all N = 100000 rows, and the 20
  row blocks cover the array (row r lies in the block of point r / 5000): the output array ends holding that function.
-/
import proofs.«114021_j8967891714119_1_alg».proof.Proof.Gen.KernelIdeal.Frame
import proofs.«114021_j8967891714119_1_alg».proof.Proof.Spec
import proofs.«114021_j8967891714119_1_alg».proof.Proof.RegionToolsA
import Idealize.ShloMosaic.Lib.Pipeline.Value
import Idealize.ShloMosaic.Lib.ValueIdx

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

namespace R2

/-- The kernel's stored value at entry (p, q) of a tile whose row p is row r of h. -/
theorem pay_entry (x0 : Vec Ideal S5000x64 .f32) (x1 : Vec Ideal S64x64 .f32) (x2 : Vec Ideal S1x64 .f32)
    (H : Cert.GcnSpec.FA Cert.ReferenceIdeal.S100000x64) (W : Cert.GcnSpec.FA Cert.ReferenceIdeal.S64x64)
    (b : Cert.GcnSpec.FA Cert.ReferenceIdeal.S1x64) (p : Fin 5000) (q : Fin 64) (r : Fin 100000)
    (h0 : ∀ k : Fin 64, x0 (ix2 p k) = H (ix2 r k)) (h1 : ∀ k : Fin 64, x1 (ix2 k q) = W (ix2 k q))
    (h2 : x2 (ix2 (0 : Fin 1) q) = b (ix2 (0 : Fin 1) q)) :
    k2_pay1 x0 x1 x2 (ix2 p q) = Cert.GcnSpec.linb H W b (ix2 r q) :=
  LinA.linTile_entry x0 x1 x2 H W b p q r h0 h1 h2

variable (V : (c : Dev nD) → (b : Ref sig .tc) → Buf (Elt Ideal) ((c : Thread nD τ).loc b))

/-- The block indices over the grid: at point t the feature tile and the output tile are row block t, the weight and
    the bias are whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is rows 5000·t … 5000·t + 4999 of h·W + b. -/
theorem flushed_eq (c : Dev nD) (t : Fin cfg2.N) :
    (dat2 (F := Ideal) V c).flushed 3 t
      = ((cfg2.win 3).blk t).view.read (Elt Ideal) (Cert.GcnSpec.linb (V c main_v50) (V c main_arg6) (V c main_v30)) := by
  show (cfg2.win 3).cut (grid2.coords t) ((dat2 V c).after 3 t) = _
  rw [after2_3]
  unfold out2_3
  rw [View.canon_unit_zero LinA.zero_offsets]
  simp only [View.ld_unit_zero (S := S5000x64) LinA.zero_offsets, View.ld_unit_zero (S := S64x64) LinA.zero_offsets,
    View.ld_unit_zero (S := S1x64) LinA.zero_offsets]
  obtain ⟨e00, e01, e10, e11, e20, e21, e30, e31⟩ := idx_facts t
  have ht : t.val < 20 := N_2 ▸ t.isLt
  funext j
  obtain ⟨p, q, rfl⟩ : ∃ (p : Fin 5000) (q : Fin 64), j = ix2 p q := ⟨j 0, j 1, eq_ix2 j⟩
  let r : Fin 100000 := ⟨t.val * 5000 + p.val, by have := p.isLt; omega⟩
  have hemb : (((cfg2.win 3).blk t).view.emb (ix2 p q) : Cert.ReferenceIdeal.S100000x64.Idx) = ix2 r q := by
    funext a; apply Fin.ext
    match a with
    | ⟨0, _⟩ => show win2_3.index t (0 : Fin 2) * 5000 + 1 * p.val = t.val * 5000 + p.val; rw [e30]; omega
    | ⟨1, _⟩ => show win2_3.index t (1 : Fin 2) * 64 + 1 * q.val = q.val; rw [e31]; omega
  show k2_pay1 (iblk2 V c 0 t) (iblk2 V c 1 t) (iblk2 V c 2 t) (ix2 p q)
     = Cert.GcnSpec.linb (V c main_v50) (V c main_arg6) (V c main_v30) (((cfg2.win 3).blk t).view.emb (ix2 p q))
  rw [hemb]
  refine pay_entry (iblk2 V c 0 t) (iblk2 V c 1 t) (iblk2 V c 2 t) _ _ _ p q r (fun k => ?_) (fun k => ?_) ?_
  · show V c main_v50 (((cfg2.win 0).blk t).view.emb (ix2 p k)) = V c main_v50 (ix2 r k)
    refine congrArg (V c main_v50) ?_
    funext a; apply Fin.ext
    match a with
    | ⟨0, _⟩ => show win2_0.index t (0 : Fin 2) * 5000 + 1 * p.val = t.val * 5000 + p.val; rw [e00]; omega
    | ⟨1, _⟩ => show win2_0.index t (1 : Fin 2) * 64 + 1 * k.val = k.val; rw [e01]; omega
  · show V c main_arg6 (((cfg2.win 1).blk t).view.emb (ix2 k q)) = V c main_arg6 (ix2 k q)
    refine congrArg (V c main_arg6) ?_
    funext a; apply Fin.ext
    match a with
    | ⟨0, _⟩ => show win2_1.index t (0 : Fin 2) * 64 + 1 * k.val = k.val; rw [e10]; omega
    | ⟨1, _⟩ => show win2_1.index t (1 : Fin 2) * 64 + 1 * q.val = q.val; rw [e11]; omega
  · show V c main_v30 (((cfg2.win 2).blk t).view.emb (ix2 (0 : Fin 1) q)) = V c main_v30 (ix2 (0 : Fin 1) q)
    refine congrArg (V c main_v30) ?_
    funext a; apply Fin.ext
    match a with
    | ⟨0, _⟩ => show win2_2.index t (0 : Fin 2) * 1 + 1 * 0 = 0; rw [e20]
    | ⟨1, _⟩ => show win2_2.index t (1 : Fin 2) * 64 + 1 * q.val = q.val; rw [e21]; omega

/-- An index of the output array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v51).slice (win2_3.rect t)).set ↔ _
  rw [View.set_slice_whole, Rect.mem_set_unit]
  exact Iff.rfl

/-- Row r of the output array lies in the block of point r / 5000, which writes back. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e30, e31⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    rw [e30, ht]; omega
  | ⟨1, _⟩ =>
    show win2_3.index t (1 : Fin 2) * 64 ≤ (i 1).val ∧ (i 1).val < win2_3.index t (1 : Fin 2) * 64 + 64
    rw [e31]; omega

end R2

variable (V : (c : Dev nD) → (b : Ref sig .tc) → Buf (Elt Ideal) ((c : Thread nD τ).loc b))

/-- The output array after the region is h·W + b of the arrays the region finds. -/
theorem out2 (c : Dev nD) :
    (dat2 (F := Ideal) V c).arrAt 3 cfg2.N = Cert.GcnSpec.linb (V c main_v50) (V c main_arg6) (V c main_v30) :=
  (dat2 V c).arrAt_eq_of_cover 3 (Cert.GcnSpec.linb (V c main_v50) (V c main_arg6) (V c main_v30))
    (fun t _ => R2.flushed_eq V c t) R2.cover

end Cert.KernelIdeal.RegionValue

end
-- ==== Proof.Region3.lean ====
/-
  The whole output array of the fourth matrix-product kernel.  Its grid has 20 points; point t multiplies rows
  5000·t … 5000·t + 4999 of the N × 64 features h by the whole 64 × 64 weight W, adds the 1 × 64 bias b to every row, and
  writes the 5000 × 64 result back over the same rows of the output.  Every point's result is therefore the
  restriction to its rows of one whole-array function, h·W + b with b repeated over all N = 100000 rows, and the 20
  row blocks cover the array (row r lies in the block of point r / 5000): the output array ends holding that function.
-/
import proofs.«114021_j8967891714119_1_alg».proof.Proof.Gen.KernelIdeal.Frame
import proofs.«114021_j8967891714119_1_alg».proof.Proof.Spec
import proofs.«114021_j8967891714119_1_alg».proof.Proof.RegionToolsA
import Idealize.ShloMosaic.Lib.Pipeline.Value
import Idealize.ShloMosaic.Lib.ValueIdx

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

namespace R3

/-- The kernel's stored value at entry (p, q) of a tile whose row p is row r of h. -/
theorem pay_entry (x0 : Vec Ideal S5000x64 .f32) (x1 : Vec Ideal S64x64 .f32) (x2 : Vec Ideal S1x64 .f32)
    (H : Cert.GcnSpec.FA Cert.ReferenceIdeal.S100000x64) (W : Cert.GcnSpec.FA Cert.ReferenceIdeal.S64x64)
    (b : Cert.GcnSpec.FA Cert.ReferenceIdeal.S1x64) (p : Fin 5000) (q : Fin 64) (r : Fin 100000)
    (h0 : ∀ k : Fin 64, x0 (ix2 p k) = H (ix2 r k)) (h1 : ∀ k : Fin 64, x1 (ix2 k q) = W (ix2 k q))
    (h2 : x2 (ix2 (0 : Fin 1) q) = b (ix2 (0 : Fin 1) q)) :
    k3_pay1 x0 x1 x2 (ix2 p q) = Cert.GcnSpec.linb H W b (ix2 r q) :=
  LinA.linTile_entry x0 x1 x2 H W b p q r h0 h1 h2

variable (V : (c : Dev nD) → (b : Ref sig .tc) → Buf (Elt Ideal) ((c : Thread nD τ).loc b))

/-- The block indices over the grid: at point t the feature tile and the output tile are row block t, the weight and
    the bias are whole. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is rows 5000·t … 5000·t + 4999 of h·W + b. -/
theorem flushed_eq (c : Dev nD) (t : Fin cfg3.N) :
    (dat3 (F := Ideal) V c).flushed 3 t
      = ((cfg3.win 3).blk t).view.read (Elt Ideal) (Cert.GcnSpec.linb (V c main_v67) (V c main_arg8) (V c main_v30)) := by
  show (cfg3.win 3).cut (grid3.coords t) ((dat3 V c).after 3 t) = _
  rw [after3_3]
  unfold out3_3
  rw [View.canon_unit_zero LinA.zero_offsets]
  simp only [View.ld_unit_zero (S := S5000x64) LinA.zero_offsets, View.ld_unit_zero (S := S64x64) LinA.zero_offsets,
    View.ld_unit_zero (S := S1x64) LinA.zero_offsets]
  obtain ⟨e00, e01, e10, e11, e20, e21, e30, e31⟩ := idx_facts t
  have ht : t.val < 20 := N_3 ▸ t.isLt
  funext j
  obtain ⟨p, q, rfl⟩ : ∃ (p : Fin 5000) (q : Fin 64), j = ix2 p q := ⟨j 0, j 1, eq_ix2 j⟩
  let r : Fin 100000 := ⟨t.val * 5000 + p.val, by have := p.isLt; omega⟩
  have hemb : (((cfg3.win 3).blk t).view.emb (ix2 p q) : Cert.ReferenceIdeal.S100000x64.Idx) = ix2 r q := by
    funext a; apply Fin.ext
    match a with
    | ⟨0, _⟩ => show win3_3.index t (0 : Fin 2) * 5000 + 1 * p.val = t.val * 5000 + p.val; rw [e30]; omega
    | ⟨1, _⟩ => show win3_3.index t (1 : Fin 2) * 64 + 1 * q.val = q.val; rw [e31]; omega
  show k3_pay1 (iblk3 V c 0 t) (iblk3 V c 1 t) (iblk3 V c 2 t) (ix2 p q)
     = Cert.GcnSpec.linb (V c main_v67) (V c main_arg8) (V c main_v30) (((cfg3.win 3).blk t).view.emb (ix2 p q))
  rw [hemb]
  refine pay_entry (iblk3 V c 0 t) (iblk3 V c 1 t) (iblk3 V c 2 t) _ _ _ p q r (fun k => ?_) (fun k => ?_) ?_
  · show V c main_v67 (((cfg3.win 0).blk t).view.emb (ix2 p k)) = V c main_v67 (ix2 r k)
    refine congrArg (V c main_v67) ?_
    funext a; apply Fin.ext
    match a with
    | ⟨0, _⟩ => show win3_0.index t (0 : Fin 2) * 5000 + 1 * p.val = t.val * 5000 + p.val; rw [e00]; omega
    | ⟨1, _⟩ => show win3_0.index t (1 : Fin 2) * 64 + 1 * k.val = k.val; rw [e01]; omega
  · show V c main_arg8 (((cfg3.win 1).blk t).view.emb (ix2 k q)) = V c main_arg8 (ix2 k q)
    refine congrArg (V c main_arg8) ?_
    funext a; apply Fin.ext
    match a with
    | ⟨0, _⟩ => show win3_1.index t (0 : Fin 2) * 64 + 1 * k.val = k.val; rw [e10]; omega
    | ⟨1, _⟩ => show win3_1.index t (1 : Fin 2) * 64 + 1 * q.val = q.val; rw [e11]; omega
  · show V c main_v30 (((cfg3.win 2).blk t).view.emb (ix2 (0 : Fin 1) q)) = V c main_v30 (ix2 (0 : Fin 1) q)
    refine congrArg (V c main_v30) ?_
    funext a; apply Fin.ext
    match a with
    | ⟨0, _⟩ => show win3_2.index t (0 : Fin 2) * 1 + 1 * 0 = 0; rw [e20]
    | ⟨1, _⟩ => show win3_2.index t (1 : Fin 2) * 64 + 1 * q.val = q.val; rw [e21]; omega

/-- An index of the output array is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v68).slice (win3_3.rect t)).set ↔ _
  rw [View.set_slice_whole, Rect.mem_set_unit]
  exact Iff.rfl

/-- Row r of the output array lies in the block of point r / 5000, which writes back. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, e30, e31⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 64 ≤ (i 1).val ∧ (i 1).val < win3_3.index t (1 : Fin 2) * 64 + 64
    rw [e31]; omega

end R3

variable (V : (c : Dev nD) → (b : Ref sig .tc) → Buf (Elt Ideal) ((c : Thread nD τ).loc b))

/-- The output array after the region is h·W + b of the arrays the region finds. -/
theorem out3 (c : Dev nD) :
    (dat3 (F := Ideal) V c).arrAt 3 cfg3.N = Cert.GcnSpec.linb (V c main_v67) (V c main_arg8) (V c main_v30) :=
  (dat3 V c).arrAt_eq_of_cover 3 (Cert.GcnSpec.linb (V c main_v67) (V c main_arg8) (V c main_v30))
    (fun t _ => R3.flushed_eq V c t) R3.cover

end Cert.KernelIdeal.RegionValue

end
-- ==== Proof.Region4.lean ====
/-
  The last region's result array as one function of whole arrays.

  The region cuts the 100000 rows of three N × 64 feature arrays l1, l2, l3 into 20 tiles of 5000 rows; at tile t it
  reads rows 5000 t … 5000 t + 4999 of each, the whole 64 × 40 weight W and the whole 1 × 40 bias b, and writes rows
  5000 t … 5000 t + 4999 of the N × 40 result.  What it writes at local row p and column q is
      max( Σ_k ((l1 + l2 + l3)(r, k) · ⅓) · W(k, q) + b(0, q), 0 )      with r = 5000 t + p,
  the third being the constant the program names.  The host's last layer divides the same sum by 3, takes the product
  with W over all 100000 rows at once, adds the bias laid along every row, and takes the maximum with 0.  On the
  extended reals x · ⅓ = x / 3 for every x, a row tile of a matrix product is the rows of the whole product, and the
  bias row read through either broadcast is b(0, q); so every tile writes its block of the host's function.  The 20
  tiles cover the array (row r lies in tile r / 5000), hence the array ends holding that function.
-/
import proofs.«114021_j8967891714119_1_alg».proof.Proof.Gen.KernelIdeal.Frame
import proofs.«114021_j8967891714119_1_alg».proof.Proof.Spec
import proofs.«114021_j8967891714119_1_alg».proof.Proof.LibRowTileDot
import Idealize.ShloMosaic.Lib.Pipeline.Value
import Idealize.ShloMosaic.Lib.ValueLayout
import Idealize.ShloMosaic.Lib.IdealHost
import Idealize.ShloMosaic.Lib.KernelVsHost
import Idealize.ShloMosaic.PureOps.IdealRules

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.RegionValue.R4

/-- The kernel's named constant is one third. -/
theorem inv3 : Named.named (F := Ideal) κ "inv_3" (φ := .f32) 0x3EAAAAAB#32 = ((1 / 3 : ℝ) : EReal) :=
  IdealRules.named_const.ideal_named_scalar _ _ _ _ rfl

/-- The float word 0x40400000 is the real number 3. -/
theorem three : Ideal.ofBits .f32 0x40400000#32 = ((3 : ℝ) : EReal) := by
  simp [Ideal.ofBits, Ideal.ieee, -EReal.coe_mul]; norm_num

/-- A sum times the named third is the sum divided by three, on every extended real. -/
theorem third_eq (s : EReal) :
    s * Named.named (F := Ideal) κ "inv_3" (φ := .f32) 0x3EAAAAAB#32 = Ideal.div s (Ideal.ofBits .f32 0x40400000#32) := by
  rw [inv3, three, Ideal.div_coe (by norm_num : (3 : ℝ) ≠ 0)]

/-- Entry (p, q) of what the kernel stores for a tile is entry (r, q) of the last layer of the whole arrays, when row p
    of each of the three tiles is row r of its array, the weight tile has the weight's column q and the bias tile the
    bias's entry q. -/
theorem pay4_apply (x0 x1 x2 : Vec Ideal S5000x64 .f32) (x3 : Vec Ideal S64x40 .f32) (x4 : Vec Ideal S1x40 .f32)
    (l1 l2 l3 : Cert.GcnSpec.FA Cert.ReferenceIdeal.S100000x64) (w : Cert.GcnSpec.FA Cert.ReferenceIdeal.S64x40)
    (b : Cert.GcnSpec.FA Cert.ReferenceIdeal.S1x40) (p : Fin 5000) (q : Fin 40) (r : Fin 100000)
    (h0 : ∀ k : Fin 64, x0 (ix2 p k) = l1 (ix2 r k)) (h1 : ∀ k : Fin 64, x1 (ix2 p k) = l2 (ix2 r k))
    (h2 : ∀ k : Fin 64, x2 (ix2 p k) = l3 (ix2 r k)) (h3 : ∀ k : Fin 64, x3 (ix2 k q) = w (ix2 k q))
    (h4 : x4 (ix2 (0 : Fin 1) q) = b (ix2 (0 : Fin 1) q)) :
    k4_pay1 (F := Ideal) x0 x1 x2 x3 x4 (ix2 p q) = Cert.GcnSpec.fin l1 l2 l3 w b (ix2 r q) := by
  unfold k4_pay1 Cert.GcnSpec.fin
  simp only [maximumf_apply, addf_apply]
  refine congrArg₂ max (congrArg₂ HAdd.hAdd ?_ ?_) ?_
  · refine Cert.LibRowTileDot.tile_entry dot_S5000x64_S64x40_S5000x40_1_0_0_1_n_n rfl rfl rfl rfl (fun _ _ => rfl) (fun _ _ => rfl)
      Cert.ReferenceIdeal.dot_S100000x64_S64x40_S100000x40_1_0_0_1_n_n rfl rfl rfl rfl (fun _ _ => rfl) (fun _ _ => rfl)
      none none _ _ _ (Cert.GcnSpec.mean3 l1 l2 l3) w p q r (fun k => ?_) (fun k => h3 k)
    unfold Cert.GcnSpec.mean3
    simp only [truncf_apply, mulf_apply, addf_apply, shapeCast_self, broadcast_apply, hostDivf_apply,
      broadcastInDim_scalar_apply, constant_apply, h0 k, h1 k, h2 k]
    exact third_eq _
  · rw [shapeCast_self, broadcastTo_1b_ab_apply, broadcastInDim_oneRow_apply]
    exact h4
  · rw [broadcast_apply, broadcastInDim_scalar_apply, constant_apply]
    rfl

/-- The zero offsets, as the constant function. -/
theorem hz : (![0, 0] : Fin 2 → Nat) = fun _ => 0 := funext fun a => by fin_cases a <;> rfl

/-- The index maps over the grid: the three feature windows and the result window sit at row tile t, the weight and
    the bias windows at the origin. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

section Blocks

variable (V : (c : Dev nD) → (b : Ref sig .tc) → Buf (Elt Ideal) ((c : Thread nD τ).loc b)) (c : Dev nD) (t : Fin cfg4.N)

/-- The first feature window's block at tile t holds rows 5000 t … 5000 t + 4999 of its array. -/
theorem iblk4_0_apply (y : S5000x64.Idx) (k : S100000x64.Idx)
    (hk0 : (k 0).val = t.val * 5000 + (y 0).val) (hk1 : (k 1).val = (y 1).val) :
    (iblk4 V c 0 t : Vec Ideal S5000x64 .f32) y = (V c main_v50 : S100000x64.Idx → EReal) k := by
  obtain ⟨e0, e1, -⟩ := idx4 t
  unfold iblk4
  rw [View.read_apply]
  show V c main_v50 _ = V c main_v50 k
  refine congrArg _ (funext fun a => Fin.ext ?_)
  match a with
  | ⟨0, _⟩ => show win4_0.index t (0 : Fin 2) * 5000 + 1 * (y 0).val = (k 0).val; omega
  | ⟨1, _⟩ => show win4_0.index t (1 : Fin 2) * 64 + 1 * (y 1).val = (k 1).val; omega

/-- The second feature window's block likewise. -/
theorem iblk4_1_apply (y : S5000x64.Idx) (k : S100000x64.Idx)
    (hk0 : (k 0).val = t.val * 5000 + (y 0).val) (hk1 : (k 1).val = (y 1).val) :
    (iblk4 V c 1 t : Vec Ideal S5000x64 .f32) y = (V c main_v67 : S100000x64.Idx → EReal) k := by
  obtain ⟨-, -, e0, e1, -⟩ := idx4 t
  unfold iblk4
  rw [View.read_apply]
  show V c main_v67 _ = V c main_v67 k
  refine congrArg _ (funext fun a => Fin.ext ?_)
  match a with
  | ⟨0, _⟩ => show win4_1.index t (0 : Fin 2) * 5000 + 1 * (y 0).val = (k 0).val; omega
  | ⟨1, _⟩ => show win4_1.index t (1 : Fin 2) * 64 + 1 * (y 1).val = (k 1).val; omega

/-- The third feature window's block likewise. -/
theorem iblk4_2_apply (y : S5000x64.Idx) (k : S100000x64.Idx)
    (hk0 : (k 0).val = t.val * 5000 + (y 0).val) (hk1 : (k 1).val = (y 1).val) :
    (iblk4 V c 2 t : Vec Ideal S5000x64 .f32) y = (V c main_v84 : S100000x64.Idx → EReal) k := by
  obtain ⟨-, -, -, -, e0, e1, -⟩ := idx4 t
  unfold iblk4
  rw [View.read_apply]
  show V c main_v84 _ = V c main_v84 k
  refine congrArg _ (funext fun a => Fin.ext ?_)
  match a with
  | ⟨0, _⟩ => show win4_2.index t (0 : Fin 2) * 5000 + 1 * (y 0).val = (k 0).val; omega
  | ⟨1, _⟩ => show win4_2.index t (1 : Fin 2) * 64 + 1 * (y 1).val = (k 1).val; omega

/-- The weight window's block is the whole weight at every tile. -/
theorem iblk4_3_apply (y : S64x40.Idx) :
    (iblk4 V c 3 t : Vec Ideal S64x40 .f32) y = (V c main_arg10 : S64x40.Idx → EReal) y := by
  obtain ⟨-, -, -, -, -, -, e0, e1, -⟩ := idx4 t
  unfold iblk4
  rw [View.read_apply]
  show V c main_arg10 _ = V c main_arg10 y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 40 + 1 * (y 1).val = (y 1).val; omega

/-- The bias window's block is the whole bias at every tile. -/
theorem iblk4_4_apply (y : S1x40.Idx) :
    (iblk4 V c 4 t : Vec Ideal S1x40 .f32) y = (V c main_v32 : S1x40.Idx → EReal) y := by
  obtain ⟨-, -, -, -, -, -, -, -, e0, e1, -⟩ := idx4 t
  unfold iblk4
  rw [View.read_apply]
  show V c main_v32 _ = V c main_v32 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 40 + 1 * (y 1).val = (y 1).val; omega

/-- What tile t writes back is its block of the last layer of the whole arrays as the region finds them. -/
theorem flushed4 :
    (dat4 (F := Ideal) V c).flushed 5 t = ((cfg4.win 5).blk t).view.read (Elt Ideal)
      (Cert.GcnSpec.fin (V c main_v50) (V c main_v67) (V c main_v84) (V c main_arg10) (V c main_v32)) := by
  show (cfg4.win 5).cut (grid4.coords t) ((dat4 V c).after 5 t) = _
  rw [after4_5]
  unfold out4_5
  rw [View.canon_unit_zero hz]
  simp only [View.ld_unit_zero (S := S5000x64) hz, View.ld_unit_zero (S := S64x40) hz, View.ld_unit_zero (S := S1x40) hz]
  funext j
  obtain ⟨p, q, rfl⟩ : ∃ (p : Fin 5000) (q : Fin 40), j = ix2 p q := ⟨j 0, j 1, eq_ix2 j⟩
  obtain ⟨-, -, -, -, -, -, -, -, -, -, e0, e1⟩ := idx4 t
  have hN : t.val < 20 := Nat.lt_of_lt_of_eq t.isLt N_4
  have hr : t.val * 5000 + p.val < 100000 := by have := p.isLt; omega
  have hemb : ((cfg4.win 5).blk t).view.emb (ix2 p q) = (ix2 (⟨t.val * 5000 + p.val, hr⟩ : Fin 100000) q : S100000x40.Idx) := by
    funext a; apply Fin.ext
    match a with
    | ⟨0, _⟩ => show win4_5.index t (0 : Fin 2) * 5000 + 1 * p.val = t.val * 5000 + p.val; omega
    | ⟨1, _⟩ => show win4_5.index t (1 : Fin 2) * 40 + 1 * q.val = q.val; omega
  rw [View.read_apply]
  show k4_pay1 (iblk4 V c 0 t) (iblk4 V c 1 t) (iblk4 V c 2 t) (iblk4 V c 3 t) (iblk4 V c 4 t) (ix2 p q)
    = Cert.GcnSpec.fin (V c main_v50) (V c main_v67) (V c main_v84) (V c main_arg10) (V c main_v32) (((cfg4.win 5).blk t).view.emb (ix2 p q))
  rw [hemb]
  refine pay4_apply (iblk4 V c 0 t) (iblk4 V c 1 t) (iblk4 V c 2 t) (iblk4 V c 3 t) (iblk4 V c 4 t) _ _ _ _ _ p q ⟨_, hr⟩
    (fun k => ?_) (fun k => ?_) (fun k => ?_) (fun k => ?_) ?_
  · exact iblk4_0_apply V c t (ix2 p k) (ix2 ⟨_, hr⟩ k) rfl rfl
  · exact iblk4_1_apply V c t (ix2 p k) (ix2 ⟨_, hr⟩ k) rfl rfl
  · exact iblk4_2_apply V c t (ix2 p k) (ix2 ⟨_, hr⟩ k) rfl rfl
  · exact iblk4_3_apply V c t (ix2 k q)
  · exact iblk4_4_apply V c t (ix2 (0 : Fin 1) q)

end Blocks

/-- An index of the result array is in tile t's block iff each coordinate is in the block's range on its axis. -/
theorem mem_blk4 (t : Fin cfg4.N) (i : S100000x40.Idx) :
    i ∈ ((cfg4.win 5).blk t).view.set ↔ ∀ a : Fin 2, win4_5.index t a * S5000x40.size a ≤ (i a).val ∧ (i a).val < win4_5.index t a * S5000x40.size a + S5000x40.size a := by
  show i ∈ ((View.whole main_v85).slice (win4_5.rect t)).set ↔ _
  rw [View.set_slice_whole, Rect.mem_set_unit]
  exact Iff.rfl

/-- Every index of the result array is in the block of the tile that holds its row: row r is in tile r / 5000. -/
theorem cover4 (i : S100000x40.Idx) : ∃ t : Fin cfg4.N, (cfg4.win 5).flush t = true ∧ i ∈ ((cfg4.win 5).blk t).view.set := by
  have hi0 : (i 0).val < 100000 := (i 0).isLt
  have hi1 : (i 1).val < 40 := (i 1).isLt
  have hN : cfg4.N = 20 := N_4
  have ht : (i 0).val / 5000 < cfg4.N := by rw [hN]; omega
  obtain ⟨-, -, -, -, -, -, -, -, -, -, e0, e1⟩ := idx4 ⟨(i 0).val / 5000, ht⟩
  refine ⟨⟨(i 0).val / 5000, ht⟩, flush4_5 _, ?_⟩
  rw [mem_blk4]
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_5.index ⟨(i 0).val / 5000, ht⟩ (1 : Fin 2) * 40 ≤ (i 1).val ∧ (i 1).val < win4_5.index ⟨(i 0).val / 5000, ht⟩ (1 : Fin 2) * 40 + 40
    rw [e1]; omega

end Cert.KernelIdeal.RegionValue.R4

namespace Cert.KernelIdeal.RegionValue

open Cert.KernelIdeal.RegionValue.R4

/-- The result array after the last region: the last layer of the three convolutions, the weight and the bias as the
    region finds them, as one function of whole arrays. -/
theorem out4 (V : (c : Dev nD) → (b : Ref sig .tc) → Buf (Elt Ideal) ((c : Thread nD τ).loc b)) (c : Dev nD) :
    (dat4 (F := Ideal) V c).arrAt 5 cfg4.N
      = Cert.GcnSpec.fin (V c main_v50) (V c main_v67) (V c main_v84) (V c main_arg10) (V c main_v32) :=
  (dat4 (F := Ideal) V c).arrAt_eq_of_cover 5 _ (fun t _ => flushed4 V c t) cover4

end Cert.KernelIdeal.RegionValue

end
-- ==== Proof.SpecWith.lean ====
/-
  The graph convolution and the edge weights with the edge lists as parameters: the same compositions of host
  operations as `Cert.GcnSpec.conv`, `nrm` and `dinv`, stated over the sources, destinations and weights of the edges
  rather than over the edge array they are computed from, so that a program's buffers can be read into them one
  stretch of host operations at a time.
-/
import proofs.«114021_j8967891714119_1_alg».proof.Proof.Spec

noncomputable section

namespace Cert.GcnSpec

open Idealize.ShloMosaic Cert.ReferenceIdeal Cert.ReferenceIdeal.Gen

/-- The degrees from the destinations of the edges. -/
def degWith (d : IA S1100000) : FA S100000 :=
  Host.scatterAdd scatter_S100000_S1100000x1_S1100000_n_0_0_1
    (broadcastInDim S100000 ![] bcast_S_S100000 (constant (F := Ideal) S_ .f32 0x00000000#32))
    (broadcastInDim S1100000x1 ![0] bcast_S1100000_S1100000x1_0 d)
    (broadcastInDim S1100000 ![] bcast_S_S1100000 (constant (F := Ideal) S_ .f32 0x3F800000#32))

/-- "Is the degree positive" from the degrees. -/
def posWith (g : FA S100000) : IVec S100000 1 :=
  cmpf .ogt g (broadcastInDim S100000 ![] bcast_S_S100000 (constant (F := Ideal) S_ .f32 0x00000000#32))

/-- degree^(-1/2) where positive and `z` elsewhere, from the test, the inverse roots and the scalar `z`. -/
def dinvWith (p : IVec S100000 1) (r : FA S100000) (z : FVec Ideal S_ .f32) : FA S100000 :=
  select p r (broadcastInDim S100000 ![] bcast_S_S100000 (id z))

/-- The edges' weights from the nodes' factors and the edges' ends. -/
def nrmWith (dv : FA S100000) (s d : IA S1100000) : FA S1100000 :=
  mulf (Host.gather gather_S100000_S1100000x1_S1100000_n_0_n_n_0_1_1 dv (gidx s))
    (Host.gather gather_S100000_S1100000x1_S1100000_n_0_n_n_0_1_1 dv (gidx d))

/-- The graph convolution from the edges' ends and weights. -/
def convWith (hw : FA S100000x64) (b : FA S64) (s d : IA S1100000) (n : FA S1100000) : FA S100000x64 :=
  addf (Host.scatterAdd scatter_S100000x64_S1100000x1_S1100000x64_1_0_0_1 zeroN64
      (broadcastInDim S1100000x1 ![0] bcast_S1100000_S1100000x1_0 d)
      (mulf (Host.gather gather_S100000x64_S1100000x1_S1100000x64_1_0_n_n_0_1_164 hw (gidx s))
        (broadcastInDim S1100000x64 ![0, 1] bcast_S1100000x1_S1100000x64_0_1
          (broadcastInDim S1100000x1 ![0] bcast_S1100000_S1100000x1_0 n))))
    (rows64 (row64 b))

theorem deg_eq (e : IA S2x1000000) : deg e = degWith (dst e) := rfl

theorem dinv_eq (e : IA S2x1000000) :
    dinv e = dinvWith (posWith (degWith (dst e))) (Host.rsqrt (degWith (dst e))) (constant (F := Ideal) S_ .f32 0x00000000#32) := rfl

theorem nrm_eq (e : IA S2x1000000) : nrm e = nrmWith (dinv e) (src e) (dst e) := rfl

theorem conv_eq (hw : FA S100000x64) (b : FA S64) (e : IA S2x1000000) :
    conv hw b e = convWith hw b (src e) (dst e) (nrm e) := rfl

end Cert.GcnSpec

end
-- ==== Proof.HostSteps.lean ====
/-
  Each stretch of host operations of the kernel program as a function of the buffer contents it starts from: the
  buffers it computes, read as the host operations' compositions of the buffers it reads, and the buffers it leaves
  alone.  The contents a stretch starts from are a parameter `X`.
-/
import proofs.«114021_j8967891714119_1_alg».proof.Proof.Gen.KernelIdeal.Frame
import proofs.«114021_j8967891714119_1_alg».proof.Proof.Spec
import Idealize.ShloMosaic.Lib.StableHlo.Run
import proofs.«114021_j8967891714119_1_alg».proof.Proof.SpecWith
set_option maxRecDepth 16384

noncomputable section

namespace Cert.KernelIdeal.HostSteps

open Idealize.ShloMosaic Idealize.ShloMosaic.TcCoe Idealize.SL.Sem Idealize.ShloMosaic.StableHlo
open Cert.KernelIdeal Cert.KernelIdeal.Gen

variable (X : Valuation τ sig (Elt Ideal))

open Cert.GcnSpec

/-- The 1 × 64 row of zeros the three middle regions take as their bias. -/
def zeroRow : FVec Ideal S1x64 .f32 := broadcastInDim S1x64 ![] bcast_S_S1x64 (constant (F := Ideal) S_ .f32 0x00000000#32)

/-! ## The first stretch: the edges' ends, the degrees -/

theorem h0_v3 : StableHlo.after hostOps0 X (Proc.devRef .tc main_v3) = src (X (Proc.devRef .tc main_arg1)) := by
  after_results_simp
  rfl

theorem h0_v6 : StableHlo.after hostOps0 X (Proc.devRef .tc main_v6) = dst (X (Proc.devRef .tc main_arg1)) := by
  after_results_simp
  rfl

theorem h0_v12 : StableHlo.after hostOps0 X (Proc.devRef .tc main_v12) = posWith (degWith (dst (X (Proc.devRef .tc main_arg1)))) := by
  after_results_simp
  rfl

theorem h0_v13 : StableHlo.after hostOps0 X (Proc.devRef .tc main_v13) = Host.rsqrt (degWith (dst (X (Proc.devRef .tc main_arg1)))) := by
  after_results_simp
  rfl

theorem h0_cst2 : StableHlo.after hostOps0 X (Proc.devRef .tc main_cst_2) = constant (F := Ideal) S_ .f32 0x00000000#32 := by
  after_results_simp

theorem h0_keep_arg0 : StableHlo.after hostOps0 X (Proc.devRef .tc main_arg0) = X (Proc.devRef .tc main_arg0) := by
  after_results_simp

theorem h0_keep_arg2 : StableHlo.after hostOps0 X (Proc.devRef .tc main_arg2) = X (Proc.devRef .tc main_arg2) := by
  after_results_simp

theorem h0_keep_arg3 : StableHlo.after hostOps0 X (Proc.devRef .tc main_arg3) = X (Proc.devRef .tc main_arg3) := by
  after_results_simp

theorem h0_keep_arg4 : StableHlo.after hostOps0 X (Proc.devRef .tc main_arg4) = X (Proc.devRef .tc main_arg4) := by
  after_results_simp

theorem h0_keep_arg5 : StableHlo.after hostOps0 X (Proc.devRef .tc main_arg5) = X (Proc.devRef .tc main_arg5) := by
  after_results_simp

theorem h0_keep_arg6 : StableHlo.after hostOps0 X (Proc.devRef .tc main_arg6) = X (Proc.devRef .tc main_arg6) := by
  after_results_simp

theorem h0_keep_arg7 : StableHlo.after hostOps0 X (Proc.devRef .tc main_arg7) = X (Proc.devRef .tc main_arg7) := by
  after_results_simp

theorem h0_keep_arg8 : StableHlo.after hostOps0 X (Proc.devRef .tc main_arg8) = X (Proc.devRef .tc main_arg8) := by
  after_results_simp

theorem h0_keep_arg9 : StableHlo.after hostOps0 X (Proc.devRef .tc main_arg9) = X (Proc.devRef .tc main_arg9) := by
  after_results_simp

theorem h0_keep_arg10 : StableHlo.after hostOps0 X (Proc.devRef .tc main_arg10) = X (Proc.devRef .tc main_arg10) := by
  after_results_simp

theorem h0_keep_arg11 : StableHlo.after hostOps0 X (Proc.devRef .tc main_arg11) = X (Proc.devRef .tc main_arg11) := by
  after_results_simp

/-! ## The second stretch: the nodes' factors -/

theorem h01_v14 : StableHlo.after hostOps0_1 X (Proc.devRef .tc main_v14) = dinvWith (X (Proc.devRef .tc main_v12)) (X (Proc.devRef .tc main_v13)) (X (Proc.devRef .tc main_cst_2)) := by
  after_results_simp
  rfl

theorem h01_keep_v3 : StableHlo.after hostOps0_1 X (Proc.devRef .tc main_v3) = X (Proc.devRef .tc main_v3) := by
  after_results_simp

theorem h01_keep_v6 : StableHlo.after hostOps0_1 X (Proc.devRef .tc main_v6) = X (Proc.devRef .tc main_v6) := by
  after_results_simp

theorem h01_keep_arg0 : StableHlo.after hostOps0_1 X (Proc.devRef .tc main_arg0) = X (Proc.devRef .tc main_arg0) := by
  after_results_simp

theorem h01_keep_arg2 : StableHlo.after hostOps0_1 X (Proc.devRef .tc main_arg2) = X (Proc.devRef .tc main_arg2) := by
  after_results_simp

theorem h01_keep_arg3 : StableHlo.after hostOps0_1 X (Proc.devRef .tc main_arg3) = X (Proc.devRef .tc main_arg3) := by
  after_results_simp

theorem h01_keep_arg4 : StableHlo.after hostOps0_1 X (Proc.devRef .tc main_arg4) = X (Proc.devRef .tc main_arg4) := by
  after_results_simp

theorem h01_keep_arg5 : StableHlo.after hostOps0_1 X (Proc.devRef .tc main_arg5) = X (Proc.devRef .tc main_arg5) := by
  after_results_simp

theorem h01_keep_arg6 : StableHlo.after hostOps0_1 X (Proc.devRef .tc main_arg6) = X (Proc.devRef .tc main_arg6) := by
  after_results_simp

theorem h01_keep_arg7 : StableHlo.after hostOps0_1 X (Proc.devRef .tc main_arg7) = X (Proc.devRef .tc main_arg7) := by
  after_results_simp

theorem h01_keep_arg8 : StableHlo.after hostOps0_1 X (Proc.devRef .tc main_arg8) = X (Proc.devRef .tc main_arg8) := by
  after_results_simp

theorem h01_keep_arg9 : StableHlo.after hostOps0_1 X (Proc.devRef .tc main_arg9) = X (Proc.devRef .tc main_arg9) := by
  after_results_simp

theorem h01_keep_arg10 : StableHlo.after hostOps0_1 X (Proc.devRef .tc main_arg10) = X (Proc.devRef .tc main_arg10) := by
  after_results_simp

theorem h01_keep_arg11 : StableHlo.after hostOps0_1 X (Proc.devRef .tc main_arg11) = X (Proc.devRef .tc main_arg11) := by
  after_results_simp

/-! ## The third stretch: the edges' weights, the bias rows -/

theorem h02_v29 : StableHlo.after hostOps0_2 X (Proc.devRef .tc main_v29) = nrmWith (X (Proc.devRef .tc main_v14)) (X (Proc.devRef .tc main_v3)) (X (Proc.devRef .tc main_v6)) := by
  after_results_simp
  rfl

theorem h02_v30 : StableHlo.after hostOps0_2 X (Proc.devRef .tc main_v30) = zeroRow := by
  after_results_simp
  rfl

theorem h02_v31 : StableHlo.after hostOps0_2 X (Proc.devRef .tc main_v31) = shapeCast S1x64 (X (Proc.devRef .tc main_arg3)) shapeCasts_S64_S1x64 := by
  after_results_simp
  rfl

theorem h02_v32 : StableHlo.after hostOps0_2 X (Proc.devRef .tc main_v32) = shapeCast S1x40 (X (Proc.devRef .tc main_arg11)) shapeCasts_S40_S1x40 := by
  after_results_simp
  rfl

theorem h02_keep_v3 : StableHlo.after hostOps0_2 X (Proc.devRef .tc main_v3) = X (Proc.devRef .tc main_v3) := by
  after_results_simp

theorem h02_keep_v6 : StableHlo.after hostOps0_2 X (Proc.devRef .tc main_v6) = X (Proc.devRef .tc main_v6) := by
  after_results_simp

theorem h02_keep_arg0 : StableHlo.after hostOps0_2 X (Proc.devRef .tc main_arg0) = X (Proc.devRef .tc main_arg0) := by
  after_results_simp

theorem h02_keep_arg2 : StableHlo.after hostOps0_2 X (Proc.devRef .tc main_arg2) = X (Proc.devRef .tc main_arg2) := by
  after_results_simp

theorem h02_keep_arg4 : StableHlo.after hostOps0_2 X (Proc.devRef .tc main_arg4) = X (Proc.devRef .tc main_arg4) := by
  after_results_simp

theorem h02_keep_arg5 : StableHlo.after hostOps0_2 X (Proc.devRef .tc main_arg5) = X (Proc.devRef .tc main_arg5) := by
  after_results_simp

theorem h02_keep_arg6 : StableHlo.after hostOps0_2 X (Proc.devRef .tc main_arg6) = X (Proc.devRef .tc main_arg6) := by
  after_results_simp

theorem h02_keep_arg7 : StableHlo.after hostOps0_2 X (Proc.devRef .tc main_arg7) = X (Proc.devRef .tc main_arg7) := by
  after_results_simp

theorem h02_keep_arg8 : StableHlo.after hostOps0_2 X (Proc.devRef .tc main_arg8) = X (Proc.devRef .tc main_arg8) := by
  after_results_simp

theorem h02_keep_arg9 : StableHlo.after hostOps0_2 X (Proc.devRef .tc main_arg9) = X (Proc.devRef .tc main_arg9) := by
  after_results_simp

theorem h02_keep_arg10 : StableHlo.after hostOps0_2 X (Proc.devRef .tc main_arg10) = X (Proc.devRef .tc main_arg10) := by
  after_results_simp

/-! ## The stretches between the regions: one graph convolution each -/

theorem h2_v50 : StableHlo.after hostOps2 X (Proc.devRef .tc main_v50) = convWith (X (Proc.devRef .tc main_v34)) (X (Proc.devRef .tc main_arg5)) (X (Proc.devRef .tc main_v3)) (X (Proc.devRef .tc main_v6)) (X (Proc.devRef .tc main_v29)) := by
  after_results_simp
  rfl

theorem h2_keep_v3 : StableHlo.after hostOps2 X (Proc.devRef .tc main_v3) = X (Proc.devRef .tc main_v3) := by
  after_results_simp

theorem h2_keep_v6 : StableHlo.after hostOps2 X (Proc.devRef .tc main_v6) = X (Proc.devRef .tc main_v6) := by
  after_results_simp

theorem h2_keep_v29 : StableHlo.after hostOps2 X (Proc.devRef .tc main_v29) = X (Proc.devRef .tc main_v29) := by
  after_results_simp

theorem h2_keep_v30 : StableHlo.after hostOps2 X (Proc.devRef .tc main_v30) = X (Proc.devRef .tc main_v30) := by
  after_results_simp

theorem h2_keep_v32 : StableHlo.after hostOps2 X (Proc.devRef .tc main_v32) = X (Proc.devRef .tc main_v32) := by
  after_results_simp

theorem h2_keep_arg6 : StableHlo.after hostOps2 X (Proc.devRef .tc main_arg6) = X (Proc.devRef .tc main_arg6) := by
  after_results_simp

theorem h2_keep_arg7 : StableHlo.after hostOps2 X (Proc.devRef .tc main_arg7) = X (Proc.devRef .tc main_arg7) := by
  after_results_simp

theorem h2_keep_arg8 : StableHlo.after hostOps2 X (Proc.devRef .tc main_arg8) = X (Proc.devRef .tc main_arg8) := by
  after_results_simp

theorem h2_keep_arg9 : StableHlo.after hostOps2 X (Proc.devRef .tc main_arg9) = X (Proc.devRef .tc main_arg9) := by
  after_results_simp

theorem h2_keep_arg10 : StableHlo.after hostOps2 X (Proc.devRef .tc main_arg10) = X (Proc.devRef .tc main_arg10) := by
  after_results_simp

theorem h3_v67 : StableHlo.after hostOps3 X (Proc.devRef .tc main_v67) = convWith (X (Proc.devRef .tc main_v51)) (X (Proc.devRef .tc main_arg7)) (X (Proc.devRef .tc main_v3)) (X (Proc.devRef .tc main_v6)) (X (Proc.devRef .tc main_v29)) := by
  after_results_simp
  rfl

theorem h3_keep_v3 : StableHlo.after hostOps3 X (Proc.devRef .tc main_v3) = X (Proc.devRef .tc main_v3) := by
  after_results_simp

theorem h3_keep_v6 : StableHlo.after hostOps3 X (Proc.devRef .tc main_v6) = X (Proc.devRef .tc main_v6) := by
  after_results_simp

theorem h3_keep_v29 : StableHlo.after hostOps3 X (Proc.devRef .tc main_v29) = X (Proc.devRef .tc main_v29) := by
  after_results_simp

theorem h3_keep_v30 : StableHlo.after hostOps3 X (Proc.devRef .tc main_v30) = X (Proc.devRef .tc main_v30) := by
  after_results_simp

theorem h3_keep_v32 : StableHlo.after hostOps3 X (Proc.devRef .tc main_v32) = X (Proc.devRef .tc main_v32) := by
  after_results_simp

theorem h3_keep_v50 : StableHlo.after hostOps3 X (Proc.devRef .tc main_v50) = X (Proc.devRef .tc main_v50) := by
  after_results_simp

theorem h3_keep_arg8 : StableHlo.after hostOps3 X (Proc.devRef .tc main_arg8) = X (Proc.devRef .tc main_arg8) := by
  after_results_simp

theorem h3_keep_arg9 : StableHlo.after hostOps3 X (Proc.devRef .tc main_arg9) = X (Proc.devRef .tc main_arg9) := by
  after_results_simp

theorem h3_keep_arg10 : StableHlo.after hostOps3 X (Proc.devRef .tc main_arg10) = X (Proc.devRef .tc main_arg10) := by
  after_results_simp

theorem h4_v84 : StableHlo.after hostOps4 X (Proc.devRef .tc main_v84) = convWith (X (Proc.devRef .tc main_v68)) (X (Proc.devRef .tc main_arg9)) (X (Proc.devRef .tc main_v3)) (X (Proc.devRef .tc main_v6)) (X (Proc.devRef .tc main_v29)) := by
  after_results_simp
  rfl

theorem h4_keep_v32 : StableHlo.after hostOps4 X (Proc.devRef .tc main_v32) = X (Proc.devRef .tc main_v32) := by
  after_results_simp

theorem h4_keep_v50 : StableHlo.after hostOps4 X (Proc.devRef .tc main_v50) = X (Proc.devRef .tc main_v50) := by
  after_results_simp

theorem h4_keep_v67 : StableHlo.after hostOps4 X (Proc.devRef .tc main_v67) = X (Proc.devRef .tc main_v67) := by
  after_results_simp

theorem h4_keep_arg10 : StableHlo.after hostOps4 X (Proc.devRef .tc main_arg10) = X (Proc.devRef .tc main_arg10) := by
  after_results_simp

end Cert.KernelIdeal.HostSteps

end
-- ==== Proof.Casts.lean ====
/-
  Three small identities between the two programs' spellings.  A vector of n entries reshaped to a 1 × n array and
  the same vector broadcast into a 1 × n array along its second axis are the same array: both read the vector at the
  column.  And a product plus the all-zero bias is the product, since x + 0 = x for every extended real x.
-/
import proofs.«114021_j8967891714119_1_alg».proof.Proof.HostSteps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Casts

open Idealize.ShloMosaic Idealize.ShloMosaic.ValueIdx
open Cert.GcnSpec

/-- The bias of 64 entries as a row: reshaped, or broadcast along the second axis. -/
theorem cast_row64 (b : FA Cert.ReferenceIdeal.S64) :
    shapeCast Cert.KernelIdeal.S1x64 b Cert.KernelIdeal.Gen.shapeCasts_S64_S1x64 = row64 b := by
  funext j
  obtain ⟨u, q, rfl⟩ : ∃ (u : Fin 1) (q : Fin 64), j = ix2 u q := ⟨j 0, j 1, eq_ix2 j⟩
  refine (shapeCast_a_1a_apply (a := 64) b _ u q).trans ?_
  unfold row64
  refine (broadcastInDim_apply _ _ b (ix2 u q) (ix1 q) (fun a => ?_)).symm
  match a with
  | ⟨0, _⟩ => rfl

/-- The bias of 40 entries as a row: reshaped, or broadcast along the second axis. -/
theorem cast_row40 (b : FVec Ideal Cert.ReferenceIdeal.S40 .f32) :
    shapeCast Cert.KernelIdeal.S1x40 b Cert.KernelIdeal.Gen.shapeCasts_S40_S1x40
      = broadcastInDim Cert.ReferenceIdeal.S1x40 ![1] Cert.ReferenceIdeal.Gen.bcast_S40_S1x40_1 b := by
  funext j
  obtain ⟨u, q, rfl⟩ : ∃ (u : Fin 1) (q : Fin 40), j = ix2 u q := ⟨j 0, j 1, eq_ix2 j⟩
  refine (shapeCast_a_1a_apply (a := 40) b _ u q).trans ?_
  refine (broadcastInDim_apply _ _ b (ix2 u q) (ix1 q) (fun a => ?_)).symm
  match a with
  | ⟨0, _⟩ => rfl

/-- h·W plus the zero row is h·W. -/
theorem linb_zero (h : FA Cert.ReferenceIdeal.S100000x64) (w : FA Cert.ReferenceIdeal.S64x64) :
    linb h w Cert.KernelIdeal.HostSteps.zeroRow = dot64 h w := by
  funext i
  show dot64 h w i + (Ideal.ofBits .f32 0x00000000#32 : EReal) = dot64 h w i
  rw [Ideal.ofBits_zero_f32, add_zero]

end Cert.KernelIdeal.Casts

end
-- ==== Proof.Stages.lean ====
/-
  The kernel program's buffers, boundary by boundary.  Its @main is eleven segments: three stretches of host
  operations, the first two matrix-product regions, and then three times a stretch of host operations (a graph
  convolution) followed by a region.  `Gen.Wk` is the contents of every buffer at the k-th boundary.  Given what
  each region leaves in its output array as a function of its input arrays (`Regions`), each boundary's buffers are
  read here as functions of the ARGUMENT arrays: the buffers a segment computes by its own lemma, the buffers it
  leaves alone carried over from the boundary before.  At the last boundary the result buffer holds the network
  `Cert.GcnSpec.net` of the arguments.
-/
import proofs.«114021_j8967891714119_1_alg».proof.Proof.HostSteps
import proofs.«114021_j8967891714119_1_alg».proof.Proof.Casts

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.KernelIdeal.HostSteps Cert.KernelIdeal.Casts Cert.GcnSpec

/-- What each region leaves in its output array: one whole-array function of its input arrays as it finds them. -/
structure Regions : Prop where
  out0 : ∀ (V : (c : Dev nD) → (b : Ref sig .tc) → Buf (Elt Ideal) ((c : Thread nD τ).loc b)) (c : Dev nD),
    (dat0 (F := Ideal) V c).arrAt 3 cfg0.N = lin0 (V c main_arg0) (V c main_arg2) (V c main_v31)
  out1 : ∀ (V : (c : Dev nD) → (b : Ref sig .tc) → Buf (Elt Ideal) ((c : Thread nD τ).loc b)) (c : Dev nD),
    (dat1 (F := Ideal) V c).arrAt 3 cfg1.N = linb (V c main_v33) (V c main_arg4) (V c main_v30)
  out2 : ∀ (V : (c : Dev nD) → (b : Ref sig .tc) → Buf (Elt Ideal) ((c : Thread nD τ).loc b)) (c : Dev nD),
    (dat2 (F := Ideal) V c).arrAt 3 cfg2.N = linb (V c main_v50) (V c main_arg6) (V c main_v30)
  out3 : ∀ (V : (c : Dev nD) → (b : Ref sig .tc) → Buf (Elt Ideal) ((c : Thread nD τ).loc b)) (c : Dev nD),
    (dat3 (F := Ideal) V c).arrAt 3 cfg3.N = linb (V c main_v67) (V c main_arg8) (V c main_v30)
  out4 : ∀ (V : (c : Dev nD) → (b : Ref sig .tc) → Buf (Elt Ideal) ((c : Thread nD τ).loc b)) (c : Dev nD),
    (dat4 (F := Ideal) V c).arrAt 5 cfg4.N = fin (V c main_v50) (V c main_v67) (V c main_v84) (V c main_arg10) (V c main_v32)

theorem congr3 {α β γ δ : Sort _} (f : α → β → γ → δ) {a a' : α} {b b' : β} {c c' : γ}
    (h1 : a = a') (h2 : b = b') (h3 : c = c') : f a b c = f a' b' c' := by subst h1 h2 h3; rfl

theorem congr5 {α β γ δ ε ζ : Sort _} (f : α → β → γ → δ → ε → ζ) {a a' : α} {b b' : β} {c c' : γ} {d d' : δ} {e e' : ε}
    (h1 : a = a') (h2 : b = b') (h3 : c = c') (h4 : d = d') (h5 : e = e') : f a b c d e = f a' b' c' d' e' := by
  subst h1 h2 h3 h4 h5; rfl

variable (m : (ℓ : Loc nD τ sig) → Buf (Elt Ideal) ℓ) (ρ : Dev nD → PrngReg) (c : Dev nD)

/-- The hidden features after the input layer. -/
def H0 : FA Cert.ReferenceIdeal.S100000x64 := lin0 (m ((c : Thread nD τ).loc main_arg0)) (m ((c : Thread nD τ).loc main_arg2)) (row64 (m ((c : Thread nD τ).loc main_arg3)))
/-- The first convolution. -/
def L1 : FA Cert.ReferenceIdeal.S100000x64 := conv (dot64 (H0 m c) (m ((c : Thread nD τ).loc main_arg4))) (m ((c : Thread nD τ).loc main_arg5)) (m ((c : Thread nD τ).loc main_arg1))
/-- The second convolution. -/
def L2 : FA Cert.ReferenceIdeal.S100000x64 := conv (dot64 (L1 m c) (m ((c : Thread nD τ).loc main_arg6))) (m ((c : Thread nD τ).loc main_arg7)) (m ((c : Thread nD τ).loc main_arg1))
/-- The third convolution. -/
def L3 : FA Cert.ReferenceIdeal.S100000x64 := conv (dot64 (L2 m c) (m ((c : Thread nD τ).loc main_arg8))) (m ((c : Thread nD τ).loc main_arg9)) (m ((c : Thread nD τ).loc main_arg1))

/-! ## After the first stretch -/

theorem at1_v3 : W1 m ρ c (Proc.devRef .tc main_v3) = src (m ((c : Thread nD τ).loc main_arg1)) := h0_v3 (W0 m ρ c)
theorem at1_v6 : W1 m ρ c (Proc.devRef .tc main_v6) = dst (m ((c : Thread nD τ).loc main_arg1)) := h0_v6 (W0 m ρ c)
theorem at1_v12 : W1 m ρ c (Proc.devRef .tc main_v12) = posWith (degWith (dst (m ((c : Thread nD τ).loc main_arg1)))) := h0_v12 (W0 m ρ c)
theorem at1_v13 : W1 m ρ c (Proc.devRef .tc main_v13) = Host.rsqrt (degWith (dst (m ((c : Thread nD τ).loc main_arg1)))) := h0_v13 (W0 m ρ c)
theorem at1_cst_2 : W1 m ρ c (Proc.devRef .tc main_cst_2) = constant (F := Ideal) S_ .f32 0x00000000#32 := h0_cst2 (W0 m ρ c)
theorem at1_arg0 : W1 m ρ c (Proc.devRef .tc main_arg0) = (m ((c : Thread nD τ).loc main_arg0)) := h0_keep_arg0 (W0 m ρ c)
theorem at1_arg2 : W1 m ρ c (Proc.devRef .tc main_arg2) = (m ((c : Thread nD τ).loc main_arg2)) := h0_keep_arg2 (W0 m ρ c)
theorem at1_arg3 : W1 m ρ c (Proc.devRef .tc main_arg3) = (m ((c : Thread nD τ).loc main_arg3)) := h0_keep_arg3 (W0 m ρ c)
theorem at1_arg4 : W1 m ρ c (Proc.devRef .tc main_arg4) = (m ((c : Thread nD τ).loc main_arg4)) := h0_keep_arg4 (W0 m ρ c)
theorem at1_arg5 : W1 m ρ c (Proc.devRef .tc main_arg5) = (m ((c : Thread nD τ).loc main_arg5)) := h0_keep_arg5 (W0 m ρ c)
theorem at1_arg6 : W1 m ρ c (Proc.devRef .tc main_arg6) = (m ((c : Thread nD τ).loc main_arg6)) := h0_keep_arg6 (W0 m ρ c)
theorem at1_arg7 : W1 m ρ c (Proc.devRef .tc main_arg7) = (m ((c : Thread nD τ).loc main_arg7)) := h0_keep_arg7 (W0 m ρ c)
theorem at1_arg8 : W1 m ρ c (Proc.devRef .tc main_arg8) = (m ((c : Thread nD τ).loc main_arg8)) := h0_keep_arg8 (W0 m ρ c)
theorem at1_arg9 : W1 m ρ c (Proc.devRef .tc main_arg9) = (m ((c : Thread nD τ).loc main_arg9)) := h0_keep_arg9 (W0 m ρ c)
theorem at1_arg10 : W1 m ρ c (Proc.devRef .tc main_arg10) = (m ((c : Thread nD τ).loc main_arg10)) := h0_keep_arg10 (W0 m ρ c)
theorem at1_arg11 : W1 m ρ c (Proc.devRef .tc main_arg11) = (m ((c : Thread nD τ).loc main_arg11)) := h0_keep_arg11 (W0 m ρ c)

/-! ## After the second stretch -/

theorem at2_v14 : W2 m ρ c (Proc.devRef .tc main_v14) = dinv (m ((c : Thread nD τ).loc main_arg1)) :=
  (h01_v14 (W1 m ρ c)).trans ((congr3 dinvWith (at1_v12 m ρ c) (at1_v13 m ρ c) (at1_cst_2 m ρ c)).trans (dinv_eq _).symm)
theorem at2_v3 : W2 m ρ c (Proc.devRef .tc main_v3) = src (m ((c : Thread nD τ).loc main_arg1)) := (h01_keep_v3 (W1 m ρ c)).trans (at1_v3 m ρ c)
theorem at2_v6 : W2 m ρ c (Proc.devRef .tc main_v6) = dst (m ((c : Thread nD τ).loc main_arg1)) := (h01_keep_v6 (W1 m ρ c)).trans (at1_v6 m ρ c)
theorem at2_arg0 : W2 m ρ c (Proc.devRef .tc main_arg0) = (m ((c : Thread nD τ).loc main_arg0)) := (h01_keep_arg0 (W1 m ρ c)).trans (at1_arg0 m ρ c)
theorem at2_arg2 : W2 m ρ c (Proc.devRef .tc main_arg2) = (m ((c : Thread nD τ).loc main_arg2)) := (h01_keep_arg2 (W1 m ρ c)).trans (at1_arg2 m ρ c)
theorem at2_arg3 : W2 m ρ c (Proc.devRef .tc main_arg3) = (m ((c : Thread nD τ).loc main_arg3)) := (h01_keep_arg3 (W1 m ρ c)).trans (at1_arg3 m ρ c)
theorem at2_arg4 : W2 m ρ c (Proc.devRef .tc main_arg4) = (m ((c : Thread nD τ).loc main_arg4)) := (h01_keep_arg4 (W1 m ρ c)).trans (at1_arg4 m ρ c)
theorem at2_arg5 : W2 m ρ c (Proc.devRef .tc main_arg5) = (m ((c : Thread nD τ).loc main_arg5)) := (h01_keep_arg5 (W1 m ρ c)).trans (at1_arg5 m ρ c)
theorem at2_arg6 : W2 m ρ c (Proc.devRef .tc main_arg6) = (m ((c : Thread nD τ).loc main_arg6)) := (h01_keep_arg6 (W1 m ρ c)).trans (at1_arg6 m ρ c)
theorem at2_arg7 : W2 m ρ c (Proc.devRef .tc main_arg7) = (m ((c : Thread nD τ).loc main_arg7)) := (h01_keep_arg7 (W1 m ρ c)).trans (at1_arg7 m ρ c)
theorem at2_arg8 : W2 m ρ c (Proc.devRef .tc main_arg8) = (m ((c : Thread nD τ).loc main_arg8)) := (h01_keep_arg8 (W1 m ρ c)).trans (at1_arg8 m ρ c)
theorem at2_arg9 : W2 m ρ c (Proc.devRef .tc main_arg9) = (m ((c : Thread nD τ).loc main_arg9)) := (h01_keep_arg9 (W1 m ρ c)).trans (at1_arg9 m ρ c)
theorem at2_arg10 : W2 m ρ c (Proc.devRef .tc main_arg10) = (m ((c : Thread nD τ).loc main_arg10)) := (h01_keep_arg10 (W1 m ρ c)).trans (at1_arg10 m ρ c)
theorem at2_arg11 : W2 m ρ c (Proc.devRef .tc main_arg11) = (m ((c : Thread nD τ).loc main_arg11)) := (h01_keep_arg11 (W1 m ρ c)).trans (at1_arg11 m ρ c)

/-! ## After the third stretch: the first region's entry -/

theorem at3_v29 : W3 m ρ c (Proc.devRef .tc main_v29) = nrm (m ((c : Thread nD τ).loc main_arg1)) :=
  (h02_v29 (W2 m ρ c)).trans ((congr3 nrmWith (at2_v14 m ρ c) (at2_v3 m ρ c) (at2_v6 m ρ c)).trans (nrm_eq _).symm)
theorem at3_v30 : W3 m ρ c (Proc.devRef .tc main_v30) = zeroRow := h02_v30 (W2 m ρ c)
theorem at3_v31 : W3 m ρ c (Proc.devRef .tc main_v31) = row64 (m ((c : Thread nD τ).loc main_arg3)) :=
  (h02_v31 (W2 m ρ c)).trans ((congrArg (fun b => shapeCast S1x64 b shapeCasts_S64_S1x64) (at2_arg3 m ρ c)).trans (cast_row64 _))
theorem at3_v32 : W3 m ρ c (Proc.devRef .tc main_v32) = shapeCast S1x40 (m ((c : Thread nD τ).loc main_arg11)) shapeCasts_S40_S1x40 :=
  (h02_v32 (W2 m ρ c)).trans (congrArg (fun b => shapeCast S1x40 b shapeCasts_S40_S1x40) (at2_arg11 m ρ c))
theorem at3_v3 : W3 m ρ c (Proc.devRef .tc main_v3) = src (m ((c : Thread nD τ).loc main_arg1)) := (h02_keep_v3 (W2 m ρ c)).trans (at2_v3 m ρ c)
theorem at3_v6 : W3 m ρ c (Proc.devRef .tc main_v6) = dst (m ((c : Thread nD τ).loc main_arg1)) := (h02_keep_v6 (W2 m ρ c)).trans (at2_v6 m ρ c)
theorem at3_arg0 : W3 m ρ c (Proc.devRef .tc main_arg0) = (m ((c : Thread nD τ).loc main_arg0)) := (h02_keep_arg0 (W2 m ρ c)).trans (at2_arg0 m ρ c)
theorem at3_arg2 : W3 m ρ c (Proc.devRef .tc main_arg2) = (m ((c : Thread nD τ).loc main_arg2)) := (h02_keep_arg2 (W2 m ρ c)).trans (at2_arg2 m ρ c)
theorem at3_arg4 : W3 m ρ c (Proc.devRef .tc main_arg4) = (m ((c : Thread nD τ).loc main_arg4)) := (h02_keep_arg4 (W2 m ρ c)).trans (at2_arg4 m ρ c)
theorem at3_arg5 : W3 m ρ c (Proc.devRef .tc main_arg5) = (m ((c : Thread nD τ).loc main_arg5)) := (h02_keep_arg5 (W2 m ρ c)).trans (at2_arg5 m ρ c)
theorem at3_arg6 : W3 m ρ c (Proc.devRef .tc main_arg6) = (m ((c : Thread nD τ).loc main_arg6)) := (h02_keep_arg6 (W2 m ρ c)).trans (at2_arg6 m ρ c)
theorem at3_arg7 : W3 m ρ c (Proc.devRef .tc main_arg7) = (m ((c : Thread nD τ).loc main_arg7)) := (h02_keep_arg7 (W2 m ρ c)).trans (at2_arg7 m ρ c)
theorem at3_arg8 : W3 m ρ c (Proc.devRef .tc main_arg8) = (m ((c : Thread nD τ).loc main_arg8)) := (h02_keep_arg8 (W2 m ρ c)).trans (at2_arg8 m ρ c)
theorem at3_arg9 : W3 m ρ c (Proc.devRef .tc main_arg9) = (m ((c : Thread nD τ).loc main_arg9)) := (h02_keep_arg9 (W2 m ρ c)).trans (at2_arg9 m ρ c)
theorem at3_arg10 : W3 m ρ c (Proc.devRef .tc main_arg10) = (m ((c : Thread nD τ).loc main_arg10)) := (h02_keep_arg10 (W2 m ρ c)).trans (at2_arg10 m ρ c)

variable (hR : Regions)
include hR

/-! ## After the first region -/

theorem at4_v33 : W4 m ρ c (Proc.devRef .tc main_v33) = H0 m c :=
  (W4_arr m ρ c 3).trans ((hR.out0 (V3 m ρ) c).trans (congr3 lin0 (at3_arg0 m ρ c) (at3_arg2 m ρ c) (at3_v31 m ρ c)))
theorem at4_v3 : W4 m ρ c (Proc.devRef .tc main_v3) = src (m ((c : Thread nD τ).loc main_arg1)) := (W4_of_ne m ρ c main_v3 (by decide)).trans (at3_v3 m ρ c)
theorem at4_v6 : W4 m ρ c (Proc.devRef .tc main_v6) = dst (m ((c : Thread nD τ).loc main_arg1)) := (W4_of_ne m ρ c main_v6 (by decide)).trans (at3_v6 m ρ c)
theorem at4_v29 : W4 m ρ c (Proc.devRef .tc main_v29) = nrm (m ((c : Thread nD τ).loc main_arg1)) := (W4_of_ne m ρ c main_v29 (by decide)).trans (at3_v29 m ρ c)
theorem at4_v30 : W4 m ρ c (Proc.devRef .tc main_v30) = zeroRow := (W4_of_ne m ρ c main_v30 (by decide)).trans (at3_v30 m ρ c)
theorem at4_v32 : W4 m ρ c (Proc.devRef .tc main_v32) = shapeCast S1x40 (m ((c : Thread nD τ).loc main_arg11)) shapeCasts_S40_S1x40 := (W4_of_ne m ρ c main_v32 (by decide)).trans (at3_v32 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)
theorem at4_arg8 : W4 m ρ c (Proc.devRef .tc main_arg8) = (m ((c : Thread nD τ).loc main_arg8)) := (W4_of_ne m ρ c main_arg8 (by decide)).trans (at3_arg8 m ρ c)
theorem at4_arg9 : W4 m ρ c (Proc.devRef .tc main_arg9) = (m ((c : Thread nD τ).loc main_arg9)) := (W4_of_ne m ρ c main_arg9 (by decide)).trans (at3_arg9 m ρ c)
theorem at4_arg10 : W4 m ρ c (Proc.devRef .tc main_arg10) = (m ((c : Thread nD τ).loc main_arg10)) := (W4_of_ne m ρ c main_arg10 (by decide)).trans (at3_arg10 m ρ c)

/-! ## After the second region -/

theorem at5_v34 : W5 m ρ c (Proc.devRef .tc main_v34) = dot64 (H0 m c) (m ((c : Thread nD τ).loc main_arg4)) :=
  (W5_arr m ρ c 3).trans ((hR.out1 (V4 m ρ) c).trans ((congr3 linb (at4_v33 m ρ c hR) (at4_arg4 m ρ c hR) (at4_v30 m ρ c hR)).trans (linb_zero _ _)))
theorem at5_v3 : W5 m ρ c (Proc.devRef .tc main_v3) = src (m ((c : Thread nD τ).loc main_arg1)) := (W5_of_ne m ρ c main_v3 (by decide)).trans (at4_v3 m ρ c hR)
theorem at5_v6 : W5 m ρ c (Proc.devRef .tc main_v6) = dst (m ((c : Thread nD τ).loc main_arg1)) := (W5_of_ne m ρ c main_v6 (by decide)).trans (at4_v6 m ρ c hR)
theorem at5_v29 : W5 m ρ c (Proc.devRef .tc main_v29) = nrm (m ((c : Thread nD τ).loc main_arg1)) := (W5_of_ne m ρ c main_v29 (by decide)).trans (at4_v29 m ρ c hR)
theorem at5_v30 : W5 m ρ c (Proc.devRef .tc main_v30) = zeroRow :=
  ((W5_arr m ρ c 2).trans (((dat1 (V4 m ρ) c).arrAt_in 2 rfl _).trans (A_eq1 (V4 m ρ) c 2))).trans (at4_v30 m ρ c hR)
theorem at5_v32 : W5 m ρ c (Proc.devRef .tc main_v32) = shapeCast S1x40 (m ((c : Thread nD τ).loc main_arg11)) shapeCasts_S40_S1x40 := (W5_of_ne m ρ c main_v32 (by decide)).trans (at4_v32 m ρ c hR)
theorem at5_arg5 : W5 m ρ c (Proc.devRef .tc main_arg5) = (m ((c : Thread nD τ).loc main_arg5)) := (W5_of_ne m ρ c main_arg5 (by decide)).trans (at4_arg5 m ρ c hR)
theorem at5_arg6 : W5 m ρ c (Proc.devRef .tc main_arg6) = (m ((c : Thread nD τ).loc main_arg6)) := (W5_of_ne m ρ c main_arg6 (by decide)).trans (at4_arg6 m ρ c hR)
theorem at5_arg7 : W5 m ρ c (Proc.devRef .tc main_arg7) = (m ((c : Thread nD τ).loc main_arg7)) := (W5_of_ne m ρ c main_arg7 (by decide)).trans (at4_arg7 m ρ c hR)
theorem at5_arg8 : W5 m ρ c (Proc.devRef .tc main_arg8) = (m ((c : Thread nD τ).loc main_arg8)) := (W5_of_ne m ρ c main_arg8 (by decide)).trans (at4_arg8 m ρ c hR)
theorem at5_arg9 : W5 m ρ c (Proc.devRef .tc main_arg9) = (m ((c : Thread nD τ).loc main_arg9)) := (W5_of_ne m ρ c main_arg9 (by decide)).trans (at4_arg9 m ρ c hR)
theorem at5_arg10 : W5 m ρ c (Proc.devRef .tc main_arg10) = (m ((c : Thread nD τ).loc main_arg10)) := (W5_of_ne m ρ c main_arg10 (by decide)).trans (at4_arg10 m ρ c hR)

/-! ## After the first convolution -/

theorem at6_v50 : W6 m ρ c (Proc.devRef .tc main_v50) = L1 m c :=
  (h2_v50 (W5 m ρ c)).trans ((congr5 convWith (at5_v34 m ρ c hR) (at5_arg5 m ρ c hR) (at5_v3 m ρ c hR) (at5_v6 m ρ c hR) (at5_v29 m ρ c hR)).trans (conv_eq _ _ _).symm)
theorem at6_v3 : W6 m ρ c (Proc.devRef .tc main_v3) = src (m ((c : Thread nD τ).loc main_arg1)) := (h2_keep_v3 (W5 m ρ c)).trans (at5_v3 m ρ c hR)
theorem at6_v6 : W6 m ρ c (Proc.devRef .tc main_v6) = dst (m ((c : Thread nD τ).loc main_arg1)) := (h2_keep_v6 (W5 m ρ c)).trans (at5_v6 m ρ c hR)
theorem at6_v29 : W6 m ρ c (Proc.devRef .tc main_v29) = nrm (m ((c : Thread nD τ).loc main_arg1)) := (h2_keep_v29 (W5 m ρ c)).trans (at5_v29 m ρ c hR)
theorem at6_v30 : W6 m ρ c (Proc.devRef .tc main_v30) = zeroRow := (h2_keep_v30 (W5 m ρ c)).trans (at5_v30 m ρ c hR)
theorem at6_v32 : W6 m ρ c (Proc.devRef .tc main_v32) = shapeCast S1x40 (m ((c : Thread nD τ).loc main_arg11)) shapeCasts_S40_S1x40 := (h2_keep_v32 (W5 m ρ c)).trans (at5_v32 m ρ c hR)
theorem at6_arg6 : W6 m ρ c (Proc.devRef .tc main_arg6) = (m ((c : Thread nD τ).loc main_arg6)) := (h2_keep_arg6 (W5 m ρ c)).trans (at5_arg6 m ρ c hR)
theorem at6_arg7 : W6 m ρ c (Proc.devRef .tc main_arg7) = (m ((c : Thread nD τ).loc main_arg7)) := (h2_keep_arg7 (W5 m ρ c)).trans (at5_arg7 m ρ c hR)
theorem at6_arg8 : W6 m ρ c (Proc.devRef .tc main_arg8) = (m ((c : Thread nD τ).loc main_arg8)) := (h2_keep_arg8 (W5 m ρ c)).trans (at5_arg8 m ρ c hR)
theorem at6_arg9 : W6 m ρ c (Proc.devRef .tc main_arg9) = (m ((c : Thread nD τ).loc main_arg9)) := (h2_keep_arg9 (W5 m ρ c)).trans (at5_arg9 m ρ c hR)
theorem at6_arg10 : W6 m ρ c (Proc.devRef .tc main_arg10) = (m ((c : Thread nD τ).loc main_arg10)) := (h2_keep_arg10 (W5 m ρ c)).trans (at5_arg10 m ρ c hR)

/-! ## After the third region -/

theorem at7_v51 : W7 m ρ c (Proc.devRef .tc main_v51) = dot64 (L1 m c) (m ((c : Thread nD τ).loc main_arg6)) :=
  (W7_arr m ρ c 3).trans ((hR.out2 (V6 m ρ) c).trans ((congr3 linb (at6_v50 m ρ c hR) (at6_arg6 m ρ c hR) (at6_v30 m ρ c hR)).trans (linb_zero _ _)))
theorem at7_v3 : W7 m ρ c (Proc.devRef .tc main_v3) = src (m ((c : Thread nD τ).loc main_arg1)) := (W7_of_ne m ρ c main_v3 (by decide)).trans (at6_v3 m ρ c hR)
theorem at7_v6 : W7 m ρ c (Proc.devRef .tc main_v6) = dst (m ((c : Thread nD τ).loc main_arg1)) := (W7_of_ne m ρ c main_v6 (by decide)).trans (at6_v6 m ρ c hR)
theorem at7_v29 : W7 m ρ c (Proc.devRef .tc main_v29) = nrm (m ((c : Thread nD τ).loc main_arg1)) := (W7_of_ne m ρ c main_v29 (by decide)).trans (at6_v29 m ρ c hR)
theorem at7_v30 : W7 m ρ c (Proc.devRef .tc main_v30) = zeroRow :=
  ((W7_arr m ρ c 2).trans (((dat2 (V6 m ρ) c).arrAt_in 2 rfl _).trans (A_eq2 (V6 m ρ) c 2))).trans (at6_v30 m ρ c hR)
theorem at7_v32 : W7 m ρ c (Proc.devRef .tc main_v32) = shapeCast S1x40 (m ((c : Thread nD τ).loc main_arg11)) shapeCasts_S40_S1x40 := (W7_of_ne m ρ c main_v32 (by decide)).trans (at6_v32 m ρ c hR)
theorem at7_v50 : W7 m ρ c (Proc.devRef .tc main_v50) = L1 m c :=
  ((W7_arr m ρ c 0).trans (((dat2 (V6 m ρ) c).arrAt_in 0 rfl _).trans (A_eq2 (V6 m ρ) c 0))).trans (at6_v50 m ρ c hR)
theorem at7_arg7 : W7 m ρ c (Proc.devRef .tc main_arg7) = (m ((c : Thread nD τ).loc main_arg7)) := (W7_of_ne m ρ c main_arg7 (by decide)).trans (at6_arg7 m ρ c hR)
theorem at7_arg8 : W7 m ρ c (Proc.devRef .tc main_arg8) = (m ((c : Thread nD τ).loc main_arg8)) := (W7_of_ne m ρ c main_arg8 (by decide)).trans (at6_arg8 m ρ c hR)
theorem at7_arg9 : W7 m ρ c (Proc.devRef .tc main_arg9) = (m ((c : Thread nD τ).loc main_arg9)) := (W7_of_ne m ρ c main_arg9 (by decide)).trans (at6_arg9 m ρ c hR)
theorem at7_arg10 : W7 m ρ c (Proc.devRef .tc main_arg10) = (m ((c : Thread nD τ).loc main_arg10)) := (W7_of_ne m ρ c main_arg10 (by decide)).trans (at6_arg10 m ρ c hR)

/-! ## After the second convolution -/

theorem at8_v67 : W8 m ρ c (Proc.devRef .tc main_v67) = L2 m c :=
  (h3_v67 (W7 m ρ c)).trans ((congr5 convWith (at7_v51 m ρ c hR) (at7_arg7 m ρ c hR) (at7_v3 m ρ c hR) (at7_v6 m ρ c hR) (at7_v29 m ρ c hR)).trans (conv_eq _ _ _).symm)
theorem at8_v3 : W8 m ρ c (Proc.devRef .tc main_v3) = src (m ((c : Thread nD τ).loc main_arg1)) := (h3_keep_v3 (W7 m ρ c)).trans (at7_v3 m ρ c hR)
theorem at8_v6 : W8 m ρ c (Proc.devRef .tc main_v6) = dst (m ((c : Thread nD τ).loc main_arg1)) := (h3_keep_v6 (W7 m ρ c)).trans (at7_v6 m ρ c hR)
theorem at8_v29 : W8 m ρ c (Proc.devRef .tc main_v29) = nrm (m ((c : Thread nD τ).loc main_arg1)) := (h3_keep_v29 (W7 m ρ c)).trans (at7_v29 m ρ c hR)
theorem at8_v30 : W8 m ρ c (Proc.devRef .tc main_v30) = zeroRow := (h3_keep_v30 (W7 m ρ c)).trans (at7_v30 m ρ c hR)
theorem at8_v32 : W8 m ρ c (Proc.devRef .tc main_v32) = shapeCast S1x40 (m ((c : Thread nD τ).loc main_arg11)) shapeCasts_S40_S1x40 := (h3_keep_v32 (W7 m ρ c)).trans (at7_v32 m ρ c hR)
theorem at8_v50 : W8 m ρ c (Proc.devRef .tc main_v50) = L1 m c := (h3_keep_v50 (W7 m ρ c)).trans (at7_v50 m ρ c hR)
theorem at8_arg8 : W8 m ρ c (Proc.devRef .tc main_arg8) = (m ((c : Thread nD τ).loc main_arg8)) := (h3_keep_arg8 (W7 m ρ c)).trans (at7_arg8 m ρ c hR)
theorem at8_arg9 : W8 m ρ c (Proc.devRef .tc main_arg9) = (m ((c : Thread nD τ).loc main_arg9)) := (h3_keep_arg9 (W7 m ρ c)).trans (at7_arg9 m ρ c hR)
theorem at8_arg10 : W8 m ρ c (Proc.devRef .tc main_arg10) = (m ((c : Thread nD τ).loc main_arg10)) := (h3_keep_arg10 (W7 m ρ c)).trans (at7_arg10 m ρ c hR)

/-! ## After the fourth region -/

theorem at9_v68 : W9 m ρ c (Proc.devRef .tc main_v68) = dot64 (L2 m c) (m ((c : Thread nD τ).loc main_arg8)) :=
  (W9_arr m ρ c 3).trans ((hR.out3 (V8 m ρ) c).trans ((congr3 linb (at8_v67 m ρ c hR) (at8_arg8 m ρ c hR) (at8_v30 m ρ c hR)).trans (linb_zero _ _)))
theorem at9_v3 : W9 m ρ c (Proc.devRef .tc main_v3) = src (m ((c : Thread nD τ).loc main_arg1)) := (W9_of_ne m ρ c main_v3 (by decide)).trans (at8_v3 m ρ c hR)
theorem at9_v6 : W9 m ρ c (Proc.devRef .tc main_v6) = dst (m ((c : Thread nD τ).loc main_arg1)) := (W9_of_ne m ρ c main_v6 (by decide)).trans (at8_v6 m ρ c hR)
theorem at9_v29 : W9 m ρ c (Proc.devRef .tc main_v29) = nrm (m ((c : Thread nD τ).loc main_arg1)) := (W9_of_ne m ρ c main_v29 (by decide)).trans (at8_v29 m ρ c hR)
theorem at9_v32 : W9 m ρ c (Proc.devRef .tc main_v32) = shapeCast S1x40 (m ((c : Thread nD τ).loc main_arg11)) shapeCasts_S40_S1x40 := (W9_of_ne m ρ c main_v32 (by decide)).trans (at8_v32 m ρ c hR)
theorem at9_v50 : W9 m ρ c (Proc.devRef .tc main_v50) = L1 m c := (W9_of_ne m ρ c main_v50 (by decide)).trans (at8_v50 m ρ c hR)
theorem at9_v67 : W9 m ρ c (Proc.devRef .tc main_v67) = L2 m c :=
  ((W9_arr m ρ c 0).trans (((dat3 (V8 m ρ) c).arrAt_in 0 rfl _).trans (A_eq3 (V8 m ρ) c 0))).trans (at8_v67 m ρ c hR)
theorem at9_arg9 : W9 m ρ c (Proc.devRef .tc main_arg9) = (m ((c : Thread nD τ).loc main_arg9)) := (W9_of_ne m ρ c main_arg9 (by decide)).trans (at8_arg9 m ρ c hR)
theorem at9_arg10 : W9 m ρ c (Proc.devRef .tc main_arg10) = (m ((c : Thread nD τ).loc main_arg10)) := (W9_of_ne m ρ c main_arg10 (by decide)).trans (at8_arg10 m ρ c hR)

/-! ## After the third convolution: the last region's entry -/

theorem at10_v84 : W10 m ρ c (Proc.devRef .tc main_v84) = L3 m c :=
  (h4_v84 (W9 m ρ c)).trans ((congr5 convWith (at9_v68 m ρ c hR) (at9_arg9 m ρ c hR) (at9_v3 m ρ c hR) (at9_v6 m ρ c hR) (at9_v29 m ρ c hR)).trans (conv_eq _ _ _).symm)
theorem at10_v32 : W10 m ρ c (Proc.devRef .tc main_v32) = shapeCast S1x40 (m ((c : Thread nD τ).loc main_arg11)) shapeCasts_S40_S1x40 := (h4_keep_v32 (W9 m ρ c)).trans (at9_v32 m ρ c hR)
theorem at10_v50 : W10 m ρ c (Proc.devRef .tc main_v50) = L1 m c := (h4_keep_v50 (W9 m ρ c)).trans (at9_v50 m ρ c hR)
theorem at10_v67 : W10 m ρ c (Proc.devRef .tc main_v67) = L2 m c := (h4_keep_v67 (W9 m ρ c)).trans (at9_v67 m ρ c hR)
theorem at10_arg10 : W10 m ρ c (Proc.devRef .tc main_arg10) = (m ((c : Thread nD τ).loc main_arg10)) := (h4_keep_arg10 (W9 m ρ c)).trans (at9_arg10 m ρ c hR)

/-! ## The result -/

/-- The result buffer at the last boundary is the network of the argument arrays. -/
theorem result : W11 m ρ c (Proc.devRef .tc main_v85)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W11_arr m ρ c 5).trans ((hR.out4 (V10 m ρ) c).trans ((congr5 fin (at10_v50 m ρ c hR) (at10_v67 m ρ c hR) (at10_v84 m ρ c hR) (at10_arg10 m ρ c hR)
    ((at10_v32 m ρ c hR).trans (cast_row40 _))).trans rfl))

end Cert.KernelIdeal.Stages

end
-- ==== Proof.RefValue.lean ====
/-
  The reference program's result is the network of its argument arrays: its run's composed term, unfolded, is the
  same composition of host operations that `Cert.GcnSpec.net` names piece by piece.
-/
import proofs.«114021_j8967891714119_1_alg».proof.Proof.RefRun
import proofs.«114021_j8967891714119_1_alg».proof.Proof.Spec

set_option maxRecDepth 16384

noncomputable section

namespace Cert.ReferenceIdeal.RefValue

open Idealize.ShloMosaic Idealize.ShloMosaic.TcCoe Idealize.SL.Sem
open Cert.ReferenceIdeal Cert.ReferenceIdeal.Gen Cert.GcnSpec

theorem result (m : (ℓ : Loc nD τ sig) → Buf (Elt Ideal) ℓ) (c : Dev nD) :
    Cert.ReferenceIdeal.ValueP.res_main_v94 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.ValueP.res_main_v94
  rfl

end Cert.ReferenceIdeal.RefValue

end
-- ==== Proof.lean ====
/-
  A three-layer graph convolutional network over N = 100000 nodes and E = 1000000 edges: the kernel program computes
  its five dense layers (x·Wx, three h·Wi, and the output layer on the mean of the three convolutions) by row-tiled
  matrix-product kernels, 5000 rows to a tile, and everything on the edges (degrees, edge weights, gather, scale,
  scatter-add) by the same host operations as the reference; the reference computes the dense layers by one host
  product each.

  At the ideal instance the two agree on the extended reals with no assumption on the inputs:
  * a row tile's product into a zero accumulator, entry by entry, is the whole host product's entry of that row
    (the same sum over the contracted index), the rounding of the operands to bf16 being the identity there;
  * the three middle kernels add a bias row of zeros, and x + 0 = x;
  * the last kernel multiplies the sum of the three convolutions by the constant named inv_3, which denotes 1/3, where
    the reference divides by 3, and x · (1/3) = x / 3 for every extended real x;
  * a bias vector reshaped to a row and the same vector broadcast to a row are the same row.
  So both programs end with the network `Cert.GcnSpec.net` of their argument arrays (Proof/Spec.lean).

  The kernel program's side: its run with the result named (Proof/KernelRun.lean), each region's output array as a
  whole-array function of its input arrays (Proof/Region0.lean … Region4.lean), each stretch of host operations as a
  function of the buffers it starts from (Proof/HostSteps.lean), and the buffers boundary by boundary down to the
  result (Proof/Stages.lean).  The reference's side: its run (Proof/RefRun.lean) and its composed term as the
  network (Proof/RefValue.lean).  The one rewrite of the idealization is the named constant.
-/
import proofs.«114021_j8967891714119_1_alg».proof.Defs
import proofs.«114021_j8967891714119_1_alg».proof.Proof.Gen.Kernel
import proofs.«114021_j8967891714119_1_alg».proof.Proof.Gen.Kernel.Skeleton
import proofs.«114021_j8967891714119_1_alg».proof.Proof.Gen.Kernel.Launch
import proofs.«114021_j8967891714119_1_alg».proof.Proof.Gen.Kernel.Points
import proofs.«114021_j8967891714119_1_alg».proof.Proof.Gen.Kernel.Frame
import proofs.«114021_j8967891714119_1_alg».proof.Proof.Gen.KernelIdeal
import proofs.«114021_j8967891714119_1_alg».proof.Proof.Gen.KernelIdeal.Skeleton
import proofs.«114021_j8967891714119_1_alg».proof.Proof.Gen.KernelIdeal.Launch
import proofs.«114021_j8967891714119_1_alg».proof.Proof.Gen.KernelIdeal.Points
import proofs.«114021_j8967891714119_1_alg».proof.Proof.Gen.KernelIdeal.Frame
import proofs.«114021_j8967891714119_1_alg».proof.Proof.Gen.ReferenceIdeal
import proofs.«114021_j8967891714119_1_alg».proof.Proof.Gen.Pre_finite_inputs
import proofs.«114021_j8967891714119_1_alg».proof.Proof.KernelRun
import proofs.«114021_j8967891714119_1_alg».proof.Proof.Region0
import proofs.«114021_j8967891714119_1_alg».proof.Proof.Region1
import proofs.«114021_j8967891714119_1_alg».proof.Proof.Region2
import proofs.«114021_j8967891714119_1_alg».proof.Proof.Region3
import proofs.«114021_j8967891714119_1_alg».proof.Proof.Region4
import proofs.«114021_j8967891714119_1_alg».proof.Proof.Stages
import proofs.«114021_j8967891714119_1_alg».proof.Proof.RefRun
import proofs.«114021_j8967891714119_1_alg».proof.Proof.RefValue
import Idealize.ShloMosaic.Adequacy
import Idealize.ShloMosaic.Init

noncomputable section

namespace Cert.Proof

open Idealize.ShloMosaic Idealize.ShloMosaic.TcCoe Idealize.SL.Sem

/-- The five regions' output arrays as whole-array functions of their input arrays. -/
theorem regions : Cert.KernelIdeal.Stages.Regions :=
  ⟨Cert.KernelIdeal.RegionValue.out0, Cert.KernelIdeal.RegionValue.out1, Cert.KernelIdeal.RegionValue.out2,
    Cert.KernelIdeal.RegionValue.out3, Cert.KernelIdeal.RegionValue.out4⟩

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the constant named inv_3 denotes 1/3. -/
theorem preserves : Cert.preserves_Kernel_KernelIdeal :=
  IdealRules.named_const.statement Cert.KernelIdeal.κ "inv_3" .f32 0x3EAAAAAB#32 ((1 / 3 : ℝ) : EReal) rfl

/-- Both programs end with the network of their argument arrays, and the arguments agree. -/
theorem algebraic : Cert.algebraic_KernelIdeal_ReferenceIdeal := by
  intro m ρ m' ρ' _ hagree
  refine ⟨fun c => Cert.GcnSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Stages.result m ρ c regions), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11⟩ := hagree c
    rw [Cert.ReferenceIdeal.RefValue.result m' c, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
